-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x512x2048 : S_.BroadcastsInDim S64x512x2048 (![] : Fin 0 → Fin S64x512x2048.rank)
  reducesTo_S64x512x2048_S_d0_1_2 : S64x512x2048.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S512 .f32) (main_arg5 : FVec F S1x512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S64x1024 .f32) (main_arg1 : FVec F S64x512x2048 .f32) (main_arg2 : FVec F S512x1024 .f32) (main_arg3 : FVec F S512x2048 .f32) (main_arg4 : FVec F S512 .f32) (main_arg5 : FVec F S1x512 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x512x2048 .f32 := Host.absf main_arg1
  let main_cst_0 : FVec F S_ .f32 := constant S_ .f32 0x7F800000#32
  let main_v5 : FVec F S64x512x2048 .f32 := broadcastInDim S64x512x2048 ![] bcast_S_S64x512x2048 main_cst_0
  let main_v6 : IVec S64x512x2048 1 := cmpf .olt main_v4 main_v5
  let main_c_1 : IVec S_ 1 := constantI S_ 1 1#1
  let main_v7 : IVec S_ 1 := (fun x v => Host.reduce IntOp.andi x v reducesTo_S64x512x2048_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_v13 main_v16
-- ==== Kernel.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S64x512 : Shape := ⟨2, ![64, 512]⟩
abbrev S8x1024 : Shape := ⟨2, ![8, 1024]⟩
abbrev S8x128x2048 : Shape := ⟨3, ![8, 128, 2048]⟩
abbrev S8x128 : Shape := ⟨2, ![8, 128]⟩
abbrev S8x512 : Shape := ⟨2, ![8, 512]⟩
abbrev S1024x2048 : Shape := ⟨2, ![1024, 2048]⟩
abbrev S1024x512 : Shape := ⟨2, ![1024, 512]⟩
abbrev S8x128x512 : Shape := ⟨3, ![8, 128, 512]⟩
abbrev S8x1x512 : Shape := ⟨3, ![8, 1, 512]⟩
abbrev S1x1x512 : Shape := ⟨3, ![1, 1, 512]⟩
abbrev S_ : Shape := ⟨0, ![]⟩
abbrev S64 : Shape := ⟨1, ![64]⟩
abbrev S64x1 : Shape := ⟨2, ![64, 1]⟩
abbrev S64x512x1 : Shape := ⟨3, ![64, 512, 1]⟩
abbrev S64x1x512 : Shape := ⟨3, ![64, 1, 512]⟩
abbrev S64x2048 : Shape := ⟨2, ![64, 2048]⟩
abbrev S8x1x128 : Shape := ⟨3, ![8, 1, 128]⟩
abbrev S8x2048 : Shape := ⟨2, ![8, 2048]⟩
abbrev S8x1x2048 : Shape := ⟨3, ![8, 1, 2048]⟩

abbrev nBuf : Space → Nat
  | .hbm => 24
  | .vmem => 17
  | .smem => 0
  | _ => 0

abbrev bufTy : (tb : Table) → Fin (tcTables nBuf tb) → BufTy
  | .hbm, ⟨0, _⟩ => ⟨S64x1024, .f32⟩
  | .hbm, ⟨1, _⟩ => ⟨S64x512x2048, .f32⟩
  | .hbm, ⟨2, _⟩ => ⟨S512x1024, .f32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S64x512, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x512, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x512, .f32⟩
  | .hbm, ⟨20, _⟩ => ⟨S64x512, .f32⟩
  | .hbm, ⟨21, _⟩ => ⟨S64x512x1, .f32⟩
  | .hbm, ⟨22, _⟩ => ⟨S64x1x512, .f32⟩
  | .hbm, ⟨23, _⟩ => ⟨S64x2048, .f32⟩
  | .local _ .vmem, ⟨0, _⟩ => ⟨S8x1024, .f32⟩
  | .local _ .vmem, ⟨1, _⟩ => ⟨S8x1024, .f32⟩
  | .local _ .vmem, ⟨2, _⟩ => ⟨S8x128x2048, .f32⟩
  | .local _ .vmem, ⟨3, _⟩ => ⟨S8x128x2048, .f32⟩
  | .local _ .vmem, ⟨4, _⟩ => ⟨S512x1024, .f32⟩
  | .local _ .vmem, ⟨5, _⟩ => ⟨S512x2048, .f32⟩
  | .local _ .vmem, ⟨6, _⟩ => ⟨S512, .f32⟩
  | .local _ .vmem, ⟨7, _⟩ => ⟨S1x512, .f32⟩
  | .local _ .vmem, ⟨8, _⟩ => ⟨S8x128, .f32⟩
  | .local _ .vmem, ⟨9, _⟩ => ⟨S8x128, .f32⟩
  | .local _ .vmem, ⟨10, _⟩ => ⟨S8x128x2048, .f32⟩
  | .local _ .vmem, ⟨11, _⟩ => ⟨S8x128x2048, .f32⟩
  | .local _ .vmem, ⟨12, _⟩ => ⟨S8x1x128, .f32⟩
  | .local _ .vmem, ⟨13, _⟩ => ⟨S8x1x128, .f32⟩
  | .local _ .vmem, ⟨14, _⟩ => ⟨S8x2048, .f32⟩
  | .local _ .vmem, ⟨15, _⟩ => ⟨S8x2048, .f32⟩
  | .local _ .vmem, ⟨16, _⟩ => ⟨S8x2048, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x1024_S8x1024_0_0 : ∀ a, (![0, 0] : Fin 2 → Nat) a + S8x1024.size a ≤ S8x1024.size a
  h_S8x1024 : 0 < S8x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S1024x2048 : S8x128x2048.ShapeCasts S1024x2048
  inb_S512x2048_S512x2048_0_0 : ∀ a, (![0, 0] : Fin 2 → Nat) a + S512x2048.size a ≤ S512x2048.size a
  h_S512x2048 : 0 < S512x2048.numel
  shapeCasts_S1024x512_S8x128x512 : S1024x512.ShapeCasts S8x128x512
  inb_S512_S512_0 : ∀ a, (![0] : Fin 1 → Nat) a + S512.size a ≤ S512.size a
  h_S512 : 0 < S512.numel
  shapeCasts_S8x512_S8x1x512 : S8x512.ShapeCasts S8x1x512
  broadcasts_S8x1x512_S8x128x512 : S8x1x512.Broadcasts S8x128x512
  shapeCasts_S512_S1x1x512 : S512.ShapeCasts S1x1x512
  broadcasts_S1x1x512_S8x128x512 : S1x1x512.Broadcasts S8x128x512
  inb_S1x512_S1x512_0_0 : ∀ a, (![0, 0] : Fin 2 → Nat) a + S1x512.size a ≤ S1x512.size a
  h_S1x512 : 0 < S1x512.numel
  shapeCasts_S1x512_S512 : S1x512.ShapeCasts S512
  reduces_S8x128x512_S8x128 : S8x128x512.Reduces [2] S8x128
  inb_S8x128_S8x128_0_0 : ∀ a, (![0, 0] : Fin 2 → Nat) a + S8x128.size a ≤ S8x128.size a
  h_S8x128 : 0 < S8x128.numel
  reducesTo_S64x512_S64_d1 : S64x512.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1x128_S8x1x128_0_0_0 : ∀ a, (![0, 0, 0] : Fin 3 → Nat) a + S8x1x128.size a ≤ S8x1x128.size a
  h_S8x1x128 : 0 < S8x1x128.numel
  shapeCasts_S8x1x128_S8x1x128 : S8x1x128.ShapeCasts S8x1x128
  shapeCasts_S8x1x2048_S8x2048 : S8x1x2048.ShapeCasts S8x2048
  dot_S8x1024_S512x1024_S8x512_1_1_0_0_n_n_wf : DotDims.WF S8x1024 S512x1024 S8x512 [1] [1] [0] [0] [] []
  dot_S1024x2048_S512x2048_S1024x512_1_1_0_0_n_n_wf : DotDims.WF S1024x2048 S512x2048 S1024x512 [1] [1] [0] [0] [] []
  dot_S8x1x128_S8x128x2048_S8x1x2048_2_1_1_2_0_0_wf : DotDims.WF S8x1x128 S8x128x2048 S8x1x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S64x1024.size a
  hwx0_0 : ∀ i : grid0.Coords, EltTy.bits .f32 = 32 ∨ (Rect.block (s := S64x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S64x512x2048.size a
  hwx0_1 : ∀ i : grid0.Coords, EltTy.bits .f32 = 32 ∨ (Rect.block (s := S64x512x2048) S8x128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x512.size a
  hwx0_6 : ∀ i : grid0.Coords, EltTy.bits .f32 = 32 ∨ (Rect.block (s := S64x512) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S64x512x2048.size a
  hwx1_0 : ∀ i : grid1.Coords, EltTy.bits .f32 = 32 ∨ (Rect.block (s := S64x512x2048) S8x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1x128.size a ≤ S64x1x512.size a
  hwx1_1 : ∀ i : grid1.Coords, EltTy.bits .f32 = 32 ∨ (Rect.block (s := S64x1x512) S8x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2048.size a ≤ S64x2048.size a
  hwx1_2 : ∀ i : grid1.Coords, EltTy.bits .f32 = 32 ∨ (Rect.block (s := S64x2048) S8x2048.size (cc1_transform_2 i) (hinb1_2 i)).WholeWords (EltTy.packing .f32)

variable [Facts₀]

def dot_S8x1024_S512x1024_S8x512_1_1_0_0_n_n : DotDims S8x1024 S512x1024 S8x512 where
  lhsContracting := [1]
  rhsContracting := [1]
  lhsNonContracting := [0]
  rhsNonContracting := [0]
  lhsBatch := []
  rhsBatch := []
  wf := dot_S8x1024_S512x1024_S8x512_1_1_0_0_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S8x1x128_S8x128x2048_S8x1x2048_2_1_1_2_0_0 : DotDims S8x1x128 S8x128x2048 S8x1x2048 where
  lhsContracting := [2]
  rhsContracting := [1]
  lhsNonContracting := [1]
  rhsNonContracting := [2]
  lhsBatch := [0]
  rhsBatch := [0]
  wf := dot_S8x1x128_S8x128x2048_S8x1x2048_2_1_1_2_0_0_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S1024x512 : Shape := ⟨2, ![1024, 512]⟩
abbrev S64x512 : Shape := ⟨2, ![64, 512]⟩
abbrev S64x512x512 : Shape := ⟨3, ![64, 512, 512]⟩
abbrev S64x1x512 : Shape := ⟨3, ![64, 1, 512]⟩
abbrev S1x1x512 : Shape := ⟨3, ![1, 1, 512]⟩
abbrev S64x512x1 : Shape := ⟨3, ![64, 512, 1]⟩
abbrev S_ : Shape := ⟨0, ![]⟩
abbrev S64x1 : Shape := ⟨2, ![64, 1]⟩
abbrev S64x1x1 : Shape := ⟨3, ![64, 1, 1]⟩
abbrev S64x2048 : Shape := ⟨2, ![64, 2048]⟩

abbrev nBuf : Space → Nat
  | .hbm => 35
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x512x2048, .f32⟩
  | .hbm, ⟨2, _⟩ => ⟨S512x1024, .f32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S1024x512, .f32⟩
  | .hbm, ⟨7, _⟩ => ⟨S64x512, .f32⟩
  | .hbm, ⟨8, _⟩ => ⟨S64x512x512, .f32⟩
  | .hbm, ⟨9, _⟩ => ⟨S64x1x512, .f32⟩
  | .hbm, ⟨10, _⟩ => ⟨S64x512x512, .f32⟩
  | .hbm, ⟨11, _⟩ => ⟨S64x512x512, .f32⟩
  | .hbm, ⟨12, _⟩ => ⟨S1x1x512, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x1, .f32⟩
  | .hbm, ⟨17, _⟩ => ⟨S_, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1x1, .f32⟩
  | .hbm, ⟨23, _⟩ => ⟨S64x512x1, .f32⟩
  | .hbm, ⟨24, _⟩ => ⟨S64x512x1, .f32⟩
  | .hbm, ⟨25, _⟩ => ⟨S64x512x1, .f32⟩
  | .hbm, ⟨26, _⟩ => ⟨S_, .f32⟩
  | .hbm, ⟨27, _⟩ => ⟨S64x1, .f32⟩
  | .hbm, ⟨28, _⟩ => ⟨S64x1x1, .f32⟩
  | .hbm, ⟨29, _⟩ => ⟨S64x512x1, .f32⟩
  | .hbm, ⟨30, _⟩ => ⟨S64x512x1, .f32⟩
  | .hbm, ⟨31, _⟩ => ⟨S64x512x2048, .f32⟩
  | .hbm, ⟨32, _⟩ => ⟨S64x512x2048, .f32⟩
  | .hbm, ⟨33, _⟩ => ⟨S_, .f32⟩
  | .hbm, ⟨34, _⟩ => ⟨S64x2048, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  reducesTo_S64x512x1_S64x1_d1 : S64x512x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x512x1_0_1_2 : S64x1x1.BroadcastsInDim S64x512x1 (![0, 1, 2] : Fin 3 → Fin S64x512x1.rank)
  bcast_S64x512x1_S64x512x2048_0_1_2 : S64x512x1.BroadcastsInDim S64x512x2048 (![0, 1, 2] : Fin 3 → Fin S64x512x2048.rank)
  reducesTo_S64x512x2048_S64x2048_d1 : S64x512x2048.ReducesTo [1] S64x2048
  dot_S64x1024_S1024x512_S64x512_1_0_0_1_n_n_wf : DotDims.WF S64x1024 S1024x512 S64x512 [1] [0] [0] [1] [] []
  dot_S64x512x2048_S512x2048_S64x512x512_2_1_01_0_n_n_wf : DotDims.WF S64x512x2048 S512x2048 S64x512x512 [2] [1] [0, 1] [0] [] []
  dot_S64x512x512_S1x512_S64x512x1_2_1_01_0_n_n_wf : DotDims.WF S64x512x512 S1x512 S64x512x1 [2] [1] [0, 1] [0] [] []

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512x2048_S512x2048_S64x512x512_2_1_01_0_n_n : DotDims S64x512x2048 S512x2048 S64x512x512 where
  lhsContracting := [2]
  rhsContracting := [1]
  lhsNonContracting := [0, 1]
  rhsNonContracting := [0]
  lhsBatch := []
  rhsBatch := []
  wf := dot_S64x512x2048_S512x2048_S64x512x512_2_1_01_0_n_n_wf
def dot_S64x512x512_S1x512_S64x512x1_2_1_01_0_n_n : DotDims S64x512x512 S1x512 S64x512x1 where
  lhsContracting := [2]
  rhsContracting := [1]
  lhsNonContracting := [0, 1]
  rhsNonContracting := [0]
  lhsBatch := []
  rhsBatch := []
  wf := dot_S64x512x512_S1x512_S64x512x1_2_1_01_0_n_n_wf

class Facts : Prop extends Facts₀ where

variable [Facts]
-- ==== Proof.WRegion0.lean ====
/-
  The first call (the energies) as a pipeline: what each window's staging buffer holds around the body at every grid
  point. Every input window's buffer holds its block of the array the window stages (the hidden rows, the feature
  block, and the four whole parameter arrays), fetched at that point or kept from an earlier one; the body loads the
  six blocks whole, computes one [8, 128] tile of energies from them and stores it over the whole output buffer, so the
  output buffer after the body is that tile as a function of the six blocks. The body keeps nothing between points and
  uses no scratch: the region's invariant is the scoped rest and the generator register, untouched.
-/
import proofs.«103845_j22514218566280_2_alg».proof.Proof.Gen.Kernel.Launch
import proofs.«103845_j22514218566280_2_alg».proof.Proof.Gen.Kernel.Skeleton
import proofs.«103845_j22514218566280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or kept. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or kept. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or kept. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S8x1024 := Rect.unit (s := S8x1024) ![0, 0] S8x1024.size inb_S8x1024_S8x1024_0_0
abbrev r0_1 : Rect S8x128x2048 := Rect.unit (s := S8x128x2048) ![0, 0, 0] S8x128x2048.size inb_S8x128x2048_S8x128x2048_0_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S512 := Rect.unit (s := S512) ![0] S512.size inb_S512_S512_0
abbrev r0_5 : Rect S1x512 := Rect.unit (s := S1x512) ![0, 0] S1x512.size inb_S1x512_S1x512_0_0
abbrev r0_6 : Rect S8x128 := Rect.unit (s := S8x128) ![0, 0] S8x128.size inb_S8x128_S8x128_0_0

/-- The output buffer after the body, from the six input blocks: the one store, of the energies tile. -/
def out0_6 (x0 : Vec F S8x1024 .f32) (x1 : Vec F S8x128x2048 .f32) (x2 : Vec F S512x1024 .f32) (x3 : Vec F S512x2048 .f32) (x4 : Vec F S512 .f32) (x5 : Vec F S1x512 .f32) : Vec F S8x128 .f32 :=
  View.canon [⟨r0_6, k0_pay1 (View.ld x0 r0_0) (View.ld x2 r0_2) (View.ld x1 r0_1) (View.ld x3 r0_3) (View.ld x4 r0_4) (View.ld x5 r0_5)⟩]

/-- The one store covers the buffer. -/
theorem cover0_6 (p0 : Vec F S8x128 .f32) (y : S8x128.Idx) :
    ∃ pc ∈ ([⟨r0_6, p0⟩] : List (View.Piece (Elt F) S8x128 .f32)), y ∈ pc.1.set :=
  View.cover_of_tiled [⟨r0_6, p0⟩] S8x128.size (by rfl) y

set_option maxHeartbeats 4000000 in
/-- The body on whole staging memrefs, the inputs' at contents `xW` and the output's at anything, runs to the
    continuation holding the inputs' as they were and the output's at `out0_6` of them. -/
theorem sound_kernel0 (c : Dev nD) (E : Set ℕ) (i : grid0.Coords)
    (arg2 : Memref sig .tc .vmem S8x1024 .f32) (harg2 : arg2.IsWhole) (arg3 : Memref sig .tc .vmem S8x128x2048 .f32) (harg3 : arg3.IsWhole)
    (arg4 : Memref sig .tc .vmem S512x1024 .f32) (harg4 : arg4.IsWhole) (arg5 : Memref sig .tc .vmem S512x2048 .f32) (harg5 : arg5.IsWhole)
    (arg6 : Memref sig .tc .vmem S512 .f32) (harg6 : arg6.IsWhole) (arg7 : Memref sig .tc .vmem S1x512 .f32) (harg7 : arg7.IsWhole)
    (arg8 : Memref sig .tc .vmem S8x128 .f32) (harg8 : arg8.IsWhole)
    (x0 : Vec F S8x1024 .f32) (x1 : Vec F S8x128x2048 .f32) (x2 : Vec F S512x1024 .f32) (x3 : Vec F S512x2048 .f32) (x4 : Vec F S512 .f32) (x5 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__energy_kernel i arg2 harg2 arg3 harg3 arg4 harg4 arg5 harg5 arg6 harg6 arg7 harg7 arg8 harg8) K := by
  simp only [cc0__energy_kernel_eq_skeleton]; unfold cc0__energy_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the first call on core `c`: the arrays as the region finds them; after the body each input's
    buffer at its block and the output's at `out0_6` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.WRegion1Runs.lean ====
/-
  The second call (the weighted sum over time) run once, in each of its three control cases. The grid is 8 × 4; the
  second coordinate is the time-block index. At a point the body, when the time-block index is 0, overwrites the whole
  scratch accumulator with zeros; then it loads the feature block, the weight block and the accumulator and stores,
  over the whole accumulator, the accumulator plus the block's contribution; and when the time-block index is 3 it
  copies the accumulator over the whole output buffer. So there are three cases: first (index 0), middle (index 1, 2)
  and last (index 3). Each case's run is stated on arbitrary whole memrefs and returns, as its witness, the list of
  pieces the stores leave in the accumulator (and, in the last case, in the output buffer).
-/
import proofs.«103845_j22514218566280_2_alg».proof.Proof.Gen.Kernel.Launch
import proofs.«103845_j22514218566280_2_alg».proof.Proof.Gen.Kernel.Skeleton
import proofs.«103845_j22514218566280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form -/

/-- The body's first condition ("the time-block index is 0"), as the body computes it from the grid coordinates. -/
abbrev cond1_0 (i : grid1.Coords) : Prop :=
  (Scalar.cmpi .ne (Scalar.extui (Scalar.cmpi .eq (BitVec.ofNat 32 (i 1).val) 0#32)) 0#32) = 1#1
/-- It holds exactly at the points whose position is ≡ 0 (mod 4): decided over the 32 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second condition ("the time-block index is the last one, 3"). -/
abbrev cond1_1 (i : grid1.Coords) : Prop := k1_cond2 i = 1#1
/-- It holds exactly at the points whose position is ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The feature window is never idle. -/
theorem liveAt1_0 : ∀ t : Fin cfg1.N, cfg1.idle 0 (grid1.coords t) = false := by decide +kernel
/-- The weight window is never idle. -/
theorem liveAt1_1 : ∀ t : Fin cfg1.N, cfg1.idle 1 (grid1.coords t) = false := by decide +kernel
/-- Where the second condition fails the output window is idle: the body stores nothing into it, -/
theorem idleAt1_2 : ∀ t : Fin cfg1.N, ¬cond1_1 (grid1.coords t) → cfg1.idle 2 (grid1.coords t) = true := by decide +kernel
/-- and the pipeline does not write its block back. -/
theorem noFlush1_2 : ∀ t : Fin cfg1.N, ¬cond1_1 (grid1.coords t) → (cfg1.win 2).flush t = false := by decide +kernel
/-- Where the second condition holds the output window is live. -/
theorem liveAt1_2 : ∀ t : Fin cfg1.N, cond1_1 (grid1.coords t) → cfg1.idle 2 (grid1.coords t) = false := by decide +kernel

/-! ## The memrefs the body is called with -/

/-- Each window's current staging memref at point `t`, as the pipeline passes it, and its wholeness. -/
abbrev ms1_0 (t : Fin cfg1.N) : Memref sig .tc .vmem S8x128x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2048 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows. -/
abbrev scM1 : Memref sig .tc .vmem S8x2048 .f32 := Memref.whole cc1_scratch0
/-- The accumulator as a view: what it holds is stated through it. -/
abbrev VS1 : View sig .tc .vmem S8x2048 .f32 := scM1.view
/-- One staging buffer of the output window, through which its contents are stated. -/
abbrev VO1 : View sig .tc .vmem S8x2048 .f32 := (Memref.whole cc1_stg2_0 : Memref sig .tc .vmem S8x2048 .f32).view

/-! ## The body's run, case by case -/

set_option maxHeartbeats 1000000 in
/-- FIRST case (time-block index 0): on whole memrefs — the two inputs at their contents `x0`, `x1`, the output buffer at
    contents handed back untouched, the accumulator at anything — the body runs to the continuation holding the inputs
    and the output buffer as they were and the accumulator with the pieces `LS` written (the zero store, then the
    accumulating store). -/
noncomputable def runFirst (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : cond1_0 i) (hc1 : ¬cond1_1 i)
    (x0 : Vec F S8x128x2048 .f32) (x1 : Vec F S8x1x128 .f32) :
    { LS : List (View.Piece (Elt F) S8x2048 .f32) //
      ∀ (xi2 : Vec F S8x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, fun xi2 E K => ?run⟩
  case run =>
    simp only [cc1__weighted_sum_kernel_eq_skeleton]; unfold cc1__weighted_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE case (time-block index 1 or 2): the accumulator comes in at the contents `xs` the point before left; the
    body leaves the inputs and the output buffer as they were and the accumulator with the pieces `LS` written (the
    accumulating store alone). -/
noncomputable def runMid (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : ¬cond1_1 i)
    (x0 : Vec F S8x128x2048 .f32) (x1 : Vec F S8x1x128 .f32) (xs : Vec F S8x2048 .f32) :
    { LS : List (View.Piece (Elt F) S8x2048 .f32) //
      ∀ (xi2 : Vec F S8x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, fun xi2 E K => ?run⟩
  case run =>
    simp only [cc1__weighted_sum_kernel_eq_skeleton]; unfold cc1__weighted_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST case (time-block index 3): the accumulator comes in at the contents `xs` the point before left, the output
    buffer at anything; the body leaves the inputs as they were, the accumulator with the pieces `LS` written and the
    output buffer with the pieces `LO` written (the copy of the accumulator). -/
noncomputable def runLast (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32) :
    Σ' (LO : List (View.Piece (Elt F) S8x2048 .f32)), { LS : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, ?_, fun E K => ?run⟩
  case run =>
    simp only [cc1__weighted_sum_kernel_eq_skeleton]; unfold cc1__weighted_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs leave, as values

Every store of the body covers its whole buffer, so what a buffer holds after the body is its last store's payload; a
whole-buffer load reads the contents, or, after a store in the same run, that store's payload. -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- FIRST case: the accumulator ends at the block's contribution added to the zero splat. -/
theorem accFirst_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : cond1_0 i) (hc1 : ¬cond1_1 i)
    (x0 : Vec F S8x128x2048 .f32) (x1 : Vec F S8x1x128 .f32)
    (v : View sig .tc .vmem S8x2048 .f32) (f : v.ty.Contents (Elt F)) :
    v.read (Elt F) (v.writes (Elt F) f (runFirst c i arg2 harg2 arg3 harg3 arg4 harg4 arg5 harg5 hc0 hc1 x0 x1).1)
      = k1_pay2 x0 x1 (k1_pay1 (F := F)) := by
  rw [View.read_writes_eq_canon _ _ _ (View.cover_of_tiledL _ S8x2048.size (by sl_kernel_rfl))]
  unfold runFirst
  dsimp only
  sl_unfold_words
  rw [View.canon_cons_unit_zero (S := S8x2048) zeros2, View.readCov_unit_zero (S := S8x2048) _ zeros2]
  simp only [View.readAt_eq_ld, harg2.read_unread, harg3.read_unread, View.ld_unit_zero (S := S8x128x2048) zeros3,
    View.ld_unit_zero (S := S8x1x128) zeros3]

/-- MIDDLE case: the accumulator ends at the block's contribution added to what it held. -/
theorem accMid_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : ¬cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runMid c i arg2 harg2 arg3 harg3 arg4 harg4 arg5 harg5 hc0 hc1 x0 x1 xs).1)
      = k1_pay2 x0 x1 xs := by
  rw [View.read_writes_eq_canon _ _ _ (View.cover_of_tiledL _ S8x2048.size (by sl_kernel_rfl))]
  unfold runMid
  dsimp only
  sl_unfold_words
  rw [View.canon_unit_zero (S := S8x2048) zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

/-- LAST case: the accumulator ends at the block's contribution added to what it held, -/
theorem accLast_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runLast c i arg2 harg2 arg3 harg3 arg4 harg4 arg5 harg5 hc0 hc1 x0 x1 xs).2.1)
      = k1_pay2 x0 x1 xs := by
  rw [View.read_writes_eq_canon _ _ _ (View.cover_of_tiledL _ S8x2048.size (by sl_kernel_rfl))]
  unfold runLast
  dsimp only
  sl_unfold_words
  rw [View.canon_unit_zero (S := S8x2048) zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

/-- and the output buffer at the same: the copy of the accumulator. -/
theorem outLast_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runLast c i arg2 harg2 arg3 harg3 arg4 harg4 arg5 harg5 hc0 hc1 x0 x1 xs).1)
      = k1_pay2 x0 x1 xs := by
  rw [View.read_writes_eq_canon _ _ _ (View.cover_of_tiledL _ S8x2048.size (by sl_kernel_rfl))]
  unfold runLast
  dsimp only
  sl_unfold_words
  rw [View.canon_unit_zero (S := S8x2048) zeros2, View.readCov_unit_zero (S := S8x2048) _ zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

end Cert.Kernel.Hand1

end
-- ==== Proof.WRegion1.lean ====
/-
  The second call (the weighted sum over time) as a pipeline: what the scratch accumulator and the windows' staging
  buffers hold around the body at every grid point. The grid is 8 × 4, walked with the time-block index fastest, so
  positions 4b, 4b+1, 4b+2, 4b+3 are the four time blocks of batch block b. Both input windows are fetched at every
  point, so before the body their buffers hold the feature block and the weight block of the point. The accumulator
  is defined by recursion on the position: at a position ≡ 0 (mod 4) it is the block's contribution added to the zero
  splat, elsewhere the block's contribution added to what the position before left. The output window is written back
  at the positions ≡ 3 (mod 4) only; there the body copies the accumulator into its buffer, elsewhere the window is
  idle and its buffer is handed back untouched. The region's invariant carries the accumulator's contents from point
  to point: before the first point the scratch is at anything, afterwards at the accumulator of the point before; the
  other scoped buffers (the first call's staging buffers) and the generator register ride along untouched.
-/
import proofs.«103845_j22514218566280_2_alg».proof.Proof.WRegion1Runs

set_option maxRecDepth 16384

noncomputable section

namespace Cert.Kernel.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds the point's feature block at every point, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's current staging buffer holds the point's weight block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the scratch accumulator holds after the body at position `n`: at a position ≡ 0 (mod 4) the block's
    contribution added to the zero splat, elsewhere added to what the position before left. -/
def acc1 (c : Dev nD) : (n : ℕ) → n < cfg1.N → Vec F S8x2048 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a position ≡ 0 (mod 4) the accumulator restarts from the zero splat. -/
theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

/-- Elsewhere it adds the block's contribution to what the position before left. -/
theorem acc1_next (c : Dev nD) (t : Fin cfg1.N) (h : ¬ t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The scoped buffers this region never touches — the first call's ten staging buffers —, each at some contents. -/
def othersHeld (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant taken apart: the untouched scoped buffers, the accumulator's memref at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1 fullShare d)) ∗ (∃ r, prngReg c r)) := by
  unfold Pipeline.ΦA; rw [scopedRest1_eq]; simp only [scM1, owns_whole]; try rfl

theorem PhiA1_open (c : Dev nD) :
    (Pipeline.ΦA spec1 c : sProp 𝕄) ⊢ iprop(othersHeld (F := F) c ∗ (∃ d, owns (c : Thread nD τ) scM1 fullShare d) ∗ (∃ r, prngReg c r)) := by
  rw [PhiA1_eq]; unfold othersHeld
  iintro ⟨⟨R0, R1, R2, R3, R4, R5, R6, R7, R8, R9, HS⟩, Hg⟩
  isplitl [R0 R1 R2 R3 R4 R5 R6 R7 R8 R9]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [HS]; · iexact HS
  iexact Hg

theorem PhiA1_close (c : Dev nD) :
    iprop(othersHeld (F := F) c ∗ (∃ d, owns (c : Thread nD τ) scM1 fullShare d) ∗ (∃ r, prngReg c r)) ⊢ (Pipeline.ΦA spec1 c : sProp 𝕄) := by
  rw [PhiA1_eq]; unfold othersHeld
  iintro ⟨⟨R0, R1, R2, R3, R4, R5, R6, R7, R8, R9⟩, HS, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

/-- The invariant before position `n`: before the first point the scratch at anything; afterwards at what the point
    before left in it. The untouched scoped buffers and the generator register ride along. -/
def PhiS (c : Dev nD) : (n : ℕ) → n ≤ cfg1.N → sProp 𝕄
  | 0, _ => iprop(othersHeld (F := F) c ∗ (∃ d, owns (c : Thread nD τ) scM1 fullShare d) ∗ (∃ r, prngReg c r))
  | n + 1, hn => iprop(othersHeld (F := F) c ∗ owns (c : Thread nD τ) scM1 fullShare (acc1 V c n hn) ∗ (∃ r, prngReg c r))

theorem PhiS_zero (c : Dev nD) (n : ℕ) (h : n ≤ cfg1.N) (hz : n = 0) :
    PhiS V c n h = iprop(othersHeld (F := F) c ∗ (∃ d, owns (c : Thread nD τ) scM1 fullShare d) ∗ (∃ r, prngReg c r)) := by
  subst hz; rfl

theorem PhiS_succ (c : Dev nD) (n : ℕ) (hn : n < cfg1.N) :
    PhiS V c (n + 1) hn = iprop(othersHeld (F := F) c ∗ owns (c : Thread nD τ) scM1 fullShare (acc1 V c n hn) ∗ (∃ r, prngReg c r)) := rfl

theorem PhiS_pos (c : Dev nD) (n : ℕ) (h : n ≤ cfg1.N) (hz : n ≠ 0) :
    PhiS V c n h = iprop(othersHeld (F := F) c ∗ owns (c : Thread nD τ) scM1 fullShare (acc1 V c (n - 1) (by omega)) ∗ (∃ r, prngReg c r)) := by
  cases n with
  | zero => exact absurd rfl hz
  | succ n => rfl

/-! ## The pipeline's proof data -/

/-- The proof data on core `c`: the arrays as the region finds them; after the body each input's buffer at its block
    and the output's at the accumulator (consulted only where the window is written back); the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the library's obligation's precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold the point's blocks; the position modulo 4 says which of the three
    cases the point is in; the invariant hands the body the accumulator at what the point before left (at anything
    at the first point) and takes it back at this point's contents, which the case's run leaves there; where the
    output window is idle its buffer goes back untouched, where it is live it holds the copy of the accumulator. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_first V c t h0]
    by_cases hz : t.val = 0
    · rw [PhiS_castSucc V c t, PhiS_zero V c _ _ hz]
      iintro ⟨⟨HR, HS, Hg⟩, Ho, ⟨%d0, H0⟩, ⟨%d1, H1⟩, ⟨%d2, H2⟩⟩
      iapply ((runFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact accFirst_eq c _ _ _ _ _ _ _ _ _ hc0 hc1 _ _ _ _
        iexact Hg
      isplitl [Ho]; · iexact Ho
      isplitl [H0]; · iexact H0
      isplitl [H1]; · iexact H1
      iexists _; iexact H2
    · rw [PhiS_castSucc V c t, PhiS_pos V c _ _ hz]
      iintro ⟨⟨HR, HS, Hg⟩, Ho, ⟨%d0, H0⟩, ⟨%d1, H1⟩, ⟨%d2, H2⟩⟩
      iapply ((runFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HR HS Hg]
      · isplitl [HR]; · iexact HR
        isplitl [HS]
        · unfold owns; iexists _; isplitr
          swap; · iexact HS
          ipureintro; exact accFirst_eq c _ _ _ _ _ _ _ _ _ hc0 hc1 _ _ _ _
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [acc1_next V c t h0]
      rw [PhiS_castSucc V c t, PhiS_pos V c _ _ hz]
      iintro ⟨⟨HR, HS, Hg⟩, Ho, ⟨%d0, H0⟩, ⟨%d1, H1⟩, ⟨%d2, H2⟩⟩
      iapply ((runLast c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HR HS Hg]
      · isplitl [HR]; · iexact HR
        isplitl [HS]
        · unfold owns; iexists _; isplitr
          swap; · iexact HS
          ipureintro; exact accLast_eq c _ _ _ _ _ _ _ _ _ hc0 hc1 _ _ _ _ _
        iexact Hg
      isplitl [Ho]; · iexact Ho
      isplitl [H0]; · iexact H0
      isplitl [H1]; · iexact H1
      unfold owns; iexists _; isplitr
      swap; · iexact H2
      ipureintro; exact outLast_eq c _ _ _ _ _ _ _ _ _ hc0 hc1 _ _ _ _ _
    · have hc1 : ¬cond1_1 (grid1.coords t) := fun h => h1 ((hcond1_1 t).mp h)
      rw [Dat.leavesExact_idle (dat1 V c) 2 t (idleAt1_2 t hc1) (noFlush1_2 t hc1)]
      rw [acc1_next V c t h0]
      rw [PhiS_castSucc V c t, PhiS_pos V c _ _ hz]
      iintro ⟨⟨HR, HS, Hg⟩, Ho, ⟨%d0, H0⟩, ⟨%d1, H1⟩, ⟨%d2, H2⟩⟩
      iapply ((runMid c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact accMid_eq c _ _ _ _ _ _ _ _ _ hc0 hc1 _ _ _ _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point, taken apart. -/
theorem hin1 (c : Dev nD) : Pipeline.ΦA spec1 c ⊢ (dat1 V c).Φ 0 := by
  rw [show (dat1 V c).Φ 0 = PhiS V c 0 (Nat.zero_le _) from rfl, PhiS_zero V c 0 _ rfl]
  exact PhiA1_open c

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine BIBase.Entails.trans ?_ (PhiA1_close (F := F) c)
  iintro ⟨HR, HS, Hg⟩
  isplitl [HR]; · iexact HR
  isplitl [HS]; · iexists _; iexact HS
  iexact Hg

end Cert.Kernel.Hand1

end
-- ==== Proof.WFrames.lean ====
/-
  The two calls as regions of the program, and the program's run.
  Between the program's items every unscoped buffer is held at a named valuation: the launch memory; then the first call's
  result array at what its write-backs leave (the energies), everything else untouched; then the host operations' results
  (the softmax); then the second call's result array at what its write-backs leave. Each call's record says: its windows'
  arrays are split out of the unscoped buffers at entry and put back at exit, the generator register goes into the call's
  invariant and comes back, nothing is owed, the call has no semaphore of its own. The run then reads every unscoped
  buffer of the final memory off the last valuation: the arguments as launched, the results as computed.
-/
import proofs.«103845_j22514218566280_2_alg».proof.Proof.WRegion0
import proofs.«103845_j22514218566280_2_alg».proof.Proof.WRegion1
import proofs.«103845_j22514218566280_2_alg».proof.Proof.WRunCond

set_option maxRecDepth 16384

noncomputable section

namespace Cert.Kernel.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- What the first call is entered from: the launch memory, read at the TensorCore's references. -/
abbrev VA : (c : Dev nD) → (b : Ref sig .tc) → Buf (Elt F) ((c : Thread nD τ).loc b) := fun c b => Gen.V0 m c b

/-- After the first call: its arrays at what the pipeline leaves, every other buffer as launched. -/
def W1 (c : Dev nD) : Valuation τ sig (Elt F) :=
  Pipeline.withArrays spec0 c (Gen.V0 m c) fun w => (Hand0.dat0 (VA m) c).arrAt w cfg0.N
theorem W1_arr (c : Dev nD) (w : Fin cfg0.W) :
    W1 m c (Proc.devRef .tc (Pipeline.arrRef spec0 w)) = (Hand0.dat0 (VA m) c).arrAt w cfg0.N := by
  unfold W1; exact Pipeline.withArrays_arr spec0 launch0.win.arr_inj c _ _ w

/-- What the regions leave, as far as the second call's entry needs it: the energies. -/
def outs1 : Outs (F := F) := fun _ r c => W1 m c r

/-- What the second call is entered from: the host operations' results over the first call's. -/
abbrev VB : (c : Dev nD) → (b : Ref sig .tc) → Buf (Elt F) ((c : Thread nD τ).loc b) := fun c b => Gen.V2 m (outs1 m) c b

/-- After the second call: its arrays at what the pipeline leaves, every other buffer as entered. -/
def W3 (c : Dev nD) : Valuation τ sig (Elt F) :=
  Pipeline.withArrays spec1 c (Gen.V2 m (outs1 m) c) fun w => (Hand1.dat1 (VB m) c).arrAt w cfg1.N
theorem W3_arr (c : Dev nD) (w : Fin cfg1.W) :
    W3 m c (Proc.devRef .tc (Pipeline.arrRef spec1 w)) = (Hand1.dat1 (VB m) c).arrAt w cfg1.N := by
  unfold W3; exact Pipeline.withArrays_arr spec1 launch1.win.arr_inj c _ _ w

/-- What the two calls leave in their result arrays. -/
def outs : Outs (F := F) := fun J r c => if J = 3 then W3 m c r else W1 m c r

theorem outs_1 (c : Dev nD) : outs m 1 main_v0 c = (Hand0.dat0 (VA m) c).arrAt 6 cfg0.N := W1_arr m c 6
theorem outs_3 (c : Dev nD) : outs m 3 main_v14 c = (Hand1.dat1 (VB m) c).arrAt 2 cfg1.N := W3_arr m c 2

/-- The second call's entry valuation does not depend on what the second call leaves. -/
theorem V2_outs (c : Dev nD) : Gen.V2 m (outs m) c = Gen.V2 m (outs1 m) c := rfl

/-! ## The proof data family and what rides beside the buffers -/

def pdats : (p : Fin 2) → (c : Dev nD) → Dat τ (Elt F) Unit ℕ (UR sig nD τ) ℕ (cfgs p) c
  | ⟨0, _⟩ => fun c => Hand0.dat0 (VA m) c
  | ⟨1, _⟩ => fun c => Hand1.dat1 (VB m) c

abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)

/-! ## The calls as regions -/

/-- After the first call each of its arrays holds what the pipeline leaves: an input as launched, the result array the energies. -/
theorem hF0 (c : Dev nD) (w : Fin cfg0.W) : (Hand0.dat0 (VA m) c).arrAt w cfg0.N = Gen.V1 m (outs m) c (Pipeline.arrRef spec0 w) := by
  match w with
  | ⟨0, _⟩ => exact ((Hand0.dat0 (VA m) c).arrAt_in 0 rfl _).trans ((Hand0.A_eq0 (VA m) c 0).trans (Gen.V1_of m (outs m) c main_arg0 (by decide)).symm)
  | ⟨1, _⟩ => exact ((Hand0.dat0 (VA m) c).arrAt_in 1 rfl _).trans ((Hand0.A_eq0 (VA m) c 1).trans (Gen.V1_of m (outs m) c main_arg1 (by decide)).symm)
  | ⟨2, _⟩ => exact ((Hand0.dat0 (VA m) c).arrAt_in 2 rfl _).trans ((Hand0.A_eq0 (VA m) c 2).trans (Gen.V1_of m (outs m) c main_arg2 (by decide)).symm)
  | ⟨3, _⟩ => exact ((Hand0.dat0 (VA m) c).arrAt_in 3 rfl _).trans ((Hand0.A_eq0 (VA m) c 3).trans (Gen.V1_of m (outs m) c main_arg3 (by decide)).symm)
  | ⟨4, _⟩ => exact ((Hand0.dat0 (VA m) c).arrAt_in 4 rfl _).trans ((Hand0.A_eq0 (VA m) c 4).trans (Gen.V1_of m (outs m) c main_arg4 (by decide)).symm)
  | ⟨5, _⟩ => exact ((Hand0.dat0 (VA m) c).arrAt_in 5 rfl _).trans ((Hand0.A_eq0 (VA m) c 5).trans (Gen.V1_of m (outs m) c main_arg5 (by decide)).symm)
  | ⟨6, _⟩ =>
    show _ = Function.update (Gen.V0 m c) (Proc.devRef .tc main_v0) (outs m 1 main_v0 c) (Proc.devRef .tc main_v0)
    rw [Function.update_self]; exact (outs_1 m c).symm
/-- and every other buffer what it held at entry. -/
theorem hrest0 (c : Dev nD) : ∀ b : Ref sig .tc, b ∉ Finset.univ.image (Pipeline.arrRef spec0) → Gen.V1 m (outs m) c b = Gen.V0 m c b :=
  fun b hb => Gen.V1_of m (outs m) c b fun h => hb (Finset.mem_image.mpr ⟨6, Finset.mem_univ _, (List.mem_singleton.mp h).symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (VA m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second call each of its arrays holds what the pipeline leaves: the two inputs as entered, the result array the
    attended features. -/
theorem hF1 (c : Dev nD) (w : Fin cfg1.W) : (Hand1.dat1 (VB m) c).arrAt w cfg1.N = Gen.V3 m (outs m) c (Pipeline.arrRef spec1 w) := by
  match w with
  | ⟨0, _⟩ => exact ((Hand1.dat1 (VB m) c).arrAt_in 0 rfl _).trans ((Hand1.A_eq1 (VB m) c 0).trans (Gen.V3_of m (outs m) c main_arg1 (by decide)).symm)
  | ⟨1, _⟩ => exact ((Hand1.dat1 (VB m) c).arrAt_in 1 rfl _).trans ((Hand1.A_eq1 (VB m) c 1).trans (Gen.V3_of m (outs m) c main_v13 (by decide)).symm)
  | ⟨2, _⟩ =>
    show _ = Function.update (Gen.V2 m (outs m) c) (Proc.devRef .tc main_v14) (outs m 3 main_v14 c) (Proc.devRef .tc main_v14)
    rw [Function.update_self]; exact (outs_3 m c).symm
theorem hrest1 (c : Dev nD) : ∀ b : Ref sig .tc, b ∉ Finset.univ.image (Pipeline.arrRef spec1) → Gen.V3 m (outs m) c b = VB m c b :=
  fun b hb => Gen.V3_of m (outs m) c b fun h => hb (Finset.mem_image.mpr ⟨2, Finset.mem_univ _, (List.mem_singleton.mp h).symm⟩)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (VB m) c).loose
  hwaits := Pipeline.hwaits_of_owed_zero _ _ _ _ L lv 1 fun _ _ => rfl
  pre c := iprop(StableHlo.held (c : Thread nD τ) (Pipeline.ucRefs τ sig) (Gen.V2 m (outs1 m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (Hand1.dat1 (VB m) c).Φ 0
    refine BIBase.Entails.trans ?_ (Hand1.hin1 (VB m) c)
    unfold Pipeline.ΦA
    iintro ⟨Hp, -, Hr⟩
    isplitl [Hr]; · iexact Hr
    iexact Hp
  hout c := by
    show (Hand1.dat1 (VB m) c).Φ (Fin.last cfg1.N) ⊢ _
    refine BIBase.Entails.trans (Hand1.hout1 (VB m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, and every final memory holds
    every unscoped buffer at the last valuation. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V3 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- An unscoped TensorCore reference is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c),
     (h c _ (mem_uc main_arg4 (by decide))).trans (Gen.V3_main_arg4 m (outs m) c),
     (h c _ (mem_uc main_arg5 (by decide))).trans (Gen.V3_main_arg5 m (outs m) c)⟩) (run_main m ρ)

end Cert.Kernel.HandRun

end
-- ==== Proof.Region0.lean ====
/-
  The first call (the energies) as a pipeline: what each window's staging buffer holds around the body at every grid
  point. Every input window's buffer holds its block of the array the window stages (the hidden rows, the feature
  block, and the four whole parameter arrays), fetched at that point or kept from an earlier one; the body loads the
  six blocks whole, computes one [8, 128] tile of energies from them and stores it over the whole output buffer, so the
  output buffer after the body is that tile as a function of the six blocks. The body keeps nothing between points and
  uses no scratch: the region's invariant is the scoped rest and the generator register, untouched.
-/
import proofs.«103845_j22514218566280_2_alg».proof.Proof.Gen.KernelIdeal.Launch
import proofs.«103845_j22514218566280_2_alg».proof.Proof.Gen.KernelIdeal.Skeleton
import proofs.«103845_j22514218566280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or kept. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or kept. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or kept. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S8x1024 := Rect.unit (s := S8x1024) ![0, 0] S8x1024.size inb_S8x1024_S8x1024_0_0
abbrev r0_1 : Rect S8x128x2048 := Rect.unit (s := S8x128x2048) ![0, 0, 0] S8x128x2048.size inb_S8x128x2048_S8x128x2048_0_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S512 := Rect.unit (s := S512) ![0] S512.size inb_S512_S512_0
abbrev r0_5 : Rect S1x512 := Rect.unit (s := S1x512) ![0, 0] S1x512.size inb_S1x512_S1x512_0_0
abbrev r0_6 : Rect S8x128 := Rect.unit (s := S8x128) ![0, 0] S8x128.size inb_S8x128_S8x128_0_0

/-- The output buffer after the body, from the six input blocks: the one store, of the energies tile. -/
def out0_6 (x0 : Vec F S8x1024 .f32) (x1 : Vec F S8x128x2048 .f32) (x2 : Vec F S512x1024 .f32) (x3 : Vec F S512x2048 .f32) (x4 : Vec F S512 .f32) (x5 : Vec F S1x512 .f32) : Vec F S8x128 .f32 :=
  View.canon [⟨r0_6, k0_pay1 (View.ld x0 r0_0) (View.ld x2 r0_2) (View.ld x1 r0_1) (View.ld x3 r0_3) (View.ld x4 r0_4) (View.ld x5 r0_5)⟩]

/-- The one store covers the buffer. -/
theorem cover0_6 (p0 : Vec F S8x128 .f32) (y : S8x128.Idx) :
    ∃ pc ∈ ([⟨r0_6, p0⟩] : List (View.Piece (Elt F) S8x128 .f32)), y ∈ pc.1.set :=
  View.cover_of_tiled [⟨r0_6, p0⟩] S8x128.size (by rfl) y

set_option maxHeartbeats 4000000 in
/-- The body on whole staging memrefs, the inputs' at contents `xW` and the output's at anything, runs to the
    continuation holding the inputs' as they were and the output's at `out0_6` of them. -/
theorem sound_kernel0 (c : Dev nD) (E : Set ℕ) (i : grid0.Coords)
    (arg2 : Memref sig .tc .vmem S8x1024 .f32) (harg2 : arg2.IsWhole) (arg3 : Memref sig .tc .vmem S8x128x2048 .f32) (harg3 : arg3.IsWhole)
    (arg4 : Memref sig .tc .vmem S512x1024 .f32) (harg4 : arg4.IsWhole) (arg5 : Memref sig .tc .vmem S512x2048 .f32) (harg5 : arg5.IsWhole)
    (arg6 : Memref sig .tc .vmem S512 .f32) (harg6 : arg6.IsWhole) (arg7 : Memref sig .tc .vmem S1x512 .f32) (harg7 : arg7.IsWhole)
    (arg8 : Memref sig .tc .vmem S8x128 .f32) (harg8 : arg8.IsWhole)
    (x0 : Vec F S8x1024 .f32) (x1 : Vec F S8x128x2048 .f32) (x2 : Vec F S512x1024 .f32) (x3 : Vec F S512x2048 .f32) (x4 : Vec F S512 .f32) (x5 : Vec F S1x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__energy_kernel i arg2 harg2 arg3 harg3 arg4 harg4 arg5 harg5 arg6 harg6 arg7 harg7 arg8 harg8) K := by
  simp only [cc0__energy_kernel_eq_skeleton]; unfold cc0__energy_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the first call on core `c`: the arrays as the region finds them; after the body each input's
    buffer at its block and the output's at `out0_6` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.Region1Runs.lean ====
/-
  The second call (the weighted sum over time) run once, in each of its three control cases. The grid is 8 × 4; the
  second coordinate is the time-block index. At a point the body, when the time-block index is 0, overwrites the whole
  scratch accumulator with zeros; then it loads the feature block, the weight block and the accumulator and stores,
  over the whole accumulator, the accumulator plus the block's contribution; and when the time-block index is 3 it
  copies the accumulator over the whole output buffer. So there are three cases: first (index 0), middle (index 1, 2)
  and last (index 3). Each case's run is stated on arbitrary whole memrefs and returns, as its witness, the list of
  pieces the stores leave in the accumulator (and, in the last case, in the output buffer).
-/
import proofs.«103845_j22514218566280_2_alg».proof.Proof.Gen.KernelIdeal.Launch
import proofs.«103845_j22514218566280_2_alg».proof.Proof.Gen.KernelIdeal.Skeleton
import proofs.«103845_j22514218566280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form -/

/-- The body's first condition ("the time-block index is 0"), as the body computes it from the grid coordinates. -/
abbrev cond1_0 (i : grid1.Coords) : Prop :=
  (Scalar.cmpi .ne (Scalar.extui (Scalar.cmpi .eq (BitVec.ofNat 32 (i 1).val) 0#32)) 0#32) = 1#1
/-- It holds exactly at the points whose position is ≡ 0 (mod 4): decided over the 32 points. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second condition ("the time-block index is the last one, 3"). -/
abbrev cond1_1 (i : grid1.Coords) : Prop := k1_cond2 i = 1#1
/-- It holds exactly at the points whose position is ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The feature window is never idle. -/
theorem liveAt1_0 : ∀ t : Fin cfg1.N, cfg1.idle 0 (grid1.coords t) = false := by decide +kernel
/-- The weight window is never idle. -/
theorem liveAt1_1 : ∀ t : Fin cfg1.N, cfg1.idle 1 (grid1.coords t) = false := by decide +kernel
/-- Where the second condition fails the output window is idle: the body stores nothing into it, -/
theorem idleAt1_2 : ∀ t : Fin cfg1.N, ¬cond1_1 (grid1.coords t) → cfg1.idle 2 (grid1.coords t) = true := by decide +kernel
/-- and the pipeline does not write its block back. -/
theorem noFlush1_2 : ∀ t : Fin cfg1.N, ¬cond1_1 (grid1.coords t) → (cfg1.win 2).flush t = false := by decide +kernel
/-- Where the second condition holds the output window is live. -/
theorem liveAt1_2 : ∀ t : Fin cfg1.N, cond1_1 (grid1.coords t) → cfg1.idle 2 (grid1.coords t) = false := by decide +kernel

/-! ## The memrefs the body is called with -/

/-- Each window's current staging memref at point `t`, as the pipeline passes it, and its wholeness. -/
abbrev ms1_0 (t : Fin cfg1.N) : Memref sig .tc .vmem S8x128x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x2048 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows. -/
abbrev scM1 : Memref sig .tc .vmem S8x2048 .f32 := Memref.whole cc1_scratch0
/-- The accumulator as a view: what it holds is stated through it. -/
abbrev VS1 : View sig .tc .vmem S8x2048 .f32 := scM1.view
/-- One staging buffer of the output window, through which its contents are stated. -/
abbrev VO1 : View sig .tc .vmem S8x2048 .f32 := (Memref.whole cc1_stg2_0 : Memref sig .tc .vmem S8x2048 .f32).view

/-! ## The body's run, case by case -/

set_option maxHeartbeats 1000000 in
/-- FIRST case (time-block index 0): on whole memrefs — the two inputs at their contents `x0`, `x1`, the output buffer at
    contents handed back untouched, the accumulator at anything — the body runs to the continuation holding the inputs
    and the output buffer as they were and the accumulator with the pieces `LS` written (the zero store, then the
    accumulating store). -/
noncomputable def runFirst (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : cond1_0 i) (hc1 : ¬cond1_1 i)
    (x0 : Vec F S8x128x2048 .f32) (x1 : Vec F S8x1x128 .f32) :
    { LS : List (View.Piece (Elt F) S8x2048 .f32) //
      ∀ (xi2 : Vec F S8x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, fun xi2 E K => ?run⟩
  case run =>
    simp only [cc1__weighted_sum_kernel_eq_skeleton]; unfold cc1__weighted_sum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE case (time-block index 1 or 2): the accumulator comes in at the contents `xs` the point before left; the
    body leaves the inputs and the output buffer as they were and the accumulator with the pieces `LS` written (the
    accumulating store alone). -/
noncomputable def runMid (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : ¬cond1_1 i)
    (x0 : Vec F S8x128x2048 .f32) (x1 : Vec F S8x1x128 .f32) (xs : Vec F S8x2048 .f32) :
    { LS : List (View.Piece (Elt F) S8x2048 .f32) //
      ∀ (xi2 : Vec F S8x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, fun xi2 E K => ?run⟩
  case run =>
    simp only [cc1__weighted_sum_kernel_eq_skeleton]; unfold cc1__weighted_sum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST case (time-block index 3): the accumulator comes in at the contents `xs` the point before left, the output
    buffer at anything; the body leaves the inputs as they were, the accumulator with the pieces `LS` written and the
    output buffer with the pieces `LO` written (the copy of the accumulator). -/
noncomputable def runLast (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32) :
    Σ' (LO : List (View.Piece (Elt F) S8x2048 .f32)), { LS : List (View.Piece (Elt F) S8x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__weighted_sum_kernel i arg2 harg2 arg3 harg3 arg4 harg4 arg5 harg5) K } := by
  refine ⟨?_, ?_, fun E K => ?run⟩
  case run =>
    simp only [cc1__weighted_sum_kernel_eq_skeleton]; unfold cc1__weighted_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs leave, as values

Every store of the body covers its whole buffer, so what a buffer holds after the body is its last store's payload; a
whole-buffer load reads the contents, or, after a store in the same run, that store's payload. -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- FIRST case: the accumulator ends at the block's contribution added to the zero splat. -/
theorem accFirst_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : cond1_0 i) (hc1 : ¬cond1_1 i)
    (x0 : Vec F S8x128x2048 .f32) (x1 : Vec F S8x1x128 .f32)
    (v : View sig .tc .vmem S8x2048 .f32) (f : v.ty.Contents (Elt F)) :
    v.read (Elt F) (v.writes (Elt F) f (runFirst c i arg2 harg2 arg3 harg3 arg4 harg4 arg5 harg5 hc0 hc1 x0 x1).1)
      = k1_pay2 x0 x1 (k1_pay1 (F := F)) := by
  rw [View.read_writes_eq_canon _ _ _ (View.cover_of_tiledL _ S8x2048.size (by sl_kernel_rfl))]
  unfold runFirst
  dsimp only
  sl_unfold_words
  rw [View.canon_cons_unit_zero (S := S8x2048) zeros2, View.readCov_unit_zero (S := S8x2048) _ zeros2]
  simp only [View.readAt_eq_ld, harg2.read_unread, harg3.read_unread, View.ld_unit_zero (S := S8x128x2048) zeros3,
    View.ld_unit_zero (S := S8x1x128) zeros3]

/-- MIDDLE case: the accumulator ends at the block's contribution added to what it held. -/
theorem accMid_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : ¬cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runMid c i arg2 harg2 arg3 harg3 arg4 harg4 arg5 harg5 hc0 hc1 x0 x1 xs).1)
      = k1_pay2 x0 x1 xs := by
  rw [View.read_writes_eq_canon _ _ _ (View.cover_of_tiledL _ S8x2048.size (by sl_kernel_rfl))]
  unfold runMid
  dsimp only
  sl_unfold_words
  rw [View.canon_unit_zero (S := S8x2048) zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

/-- LAST case: the accumulator ends at the block's contribution added to what it held, -/
theorem accLast_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runLast c i arg2 harg2 arg3 harg3 arg4 harg4 arg5 harg5 hc0 hc1 x0 x1 xs).2.1)
      = k1_pay2 x0 x1 xs := by
  rw [View.read_writes_eq_canon _ _ _ (View.cover_of_tiledL _ S8x2048.size (by sl_kernel_rfl))]
  unfold runLast
  dsimp only
  sl_unfold_words
  rw [View.canon_unit_zero (S := S8x2048) zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

/-- and the output buffer at the same: the copy of the accumulator. -/
theorem outLast_eq (c : Dev nD) (i : grid1.Coords) (arg2 : Memref sig .tc .vmem S8x128x2048 .f32) (harg2 : arg2.IsWhole)
    (arg3 : Memref sig .tc .vmem S8x1x128 .f32) (harg3 : arg3.IsWhole) (arg4 : Memref sig .tc .vmem S8x2048 .f32) (harg4 : arg4.IsWhole)
    (arg5 : Memref sig .tc .vmem S8x2048 .f32) (harg5 : arg5.IsWhole) (hc0 : ¬cond1_0 i) (hc1 : cond1_1 i)
    (x0 : Vec F S8x128x2048 .f32) (x1 : Vec F S8x1x128 .f32) (xs : Vec F S8x2048 .f32)
    (v : View sig .tc .vmem S8x2048 .f32) (f : v.ty.Contents (Elt F)) :
    v.read (Elt F) (v.writes (Elt F) f (runLast c i arg2 harg2 arg3 harg3 arg4 harg4 arg5 harg5 hc0 hc1 x0 x1 xs).1)
      = k1_pay2 x0 x1 xs := by
  rw [View.read_writes_eq_canon _ _ _ (View.cover_of_tiledL _ S8x2048.size (by sl_kernel_rfl))]
  unfold runLast
  dsimp only
  sl_unfold_words
  rw [View.canon_unit_zero (S := S8x2048) zeros2, View.readCov_unit_zero (S := S8x2048) _ zeros2]
  simp only [View.readAt_eq_ld, harg2.read_unread, harg3.read_unread, harg5.read_unread, View.ld_unit_zero (S := S8x128x2048) zeros3,
    View.ld_unit_zero (S := S8x1x128) zeros3, View.ld_unit_zero (S := S8x2048) zeros2]

end Cert.KernelIdeal.Hand1

end
-- ==== Proof.Region1.lean ====
/-
  The second call (the weighted sum over time) as a pipeline: what the scratch accumulator and the windows' staging
  buffers hold around the body at every grid point. The grid is 8 × 4, walked with the time-block index fastest, so
  positions 4b, 4b+1, 4b+2, 4b+3 are the four time blocks of batch block b. Both input windows are fetched at every
  point, so before the body their buffers hold the feature block and the weight block of the point. The accumulator
  is defined by recursion on the position: at a position ≡ 0 (mod 4) it is the block's contribution added to the zero
  splat, elsewhere the block's contribution added to what the position before left. The output window is written back
  at the positions ≡ 3 (mod 4) only; there the body copies the accumulator into its buffer, elsewhere the window is
  idle and its buffer is handed back untouched. The region's invariant carries the accumulator's contents from point
  to point: before the first point the scratch is at anything, afterwards at the accumulator of the point before; the
  other scoped buffers (the first call's staging buffers) and the generator register ride along untouched.
-/
import proofs.«103845_j22514218566280_2_alg».proof.Proof.Region1Runs

set_option maxRecDepth 16384

noncomputable section

namespace Cert.KernelIdeal.Hand1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's current staging buffer holds the point's feature block at every point, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's current staging buffer holds the point's weight block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the scratch accumulator holds after the body at position `n`: at a position ≡ 0 (mod 4) the block's
    contribution added to the zero splat, elsewhere added to what the position before left. -/
def acc1 (c : Dev nD) : (n : ℕ) → n < cfg1.N → Vec F S8x2048 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a position ≡ 0 (mod 4) the accumulator restarts from the zero splat. -/
theorem acc1_first (c : Dev nD) (t : Fin cfg1.N) (h : t.val % 4 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

/-- Elsewhere it adds the block's contribution to what the position before left. -/
theorem acc1_next (c : Dev nD) (t : Fin cfg1.N) (h : ¬ t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The scoped buffers this region never touches — the first call's ten staging buffers —, each at some contents. -/
def othersHeld (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class's invariant taken apart: the untouched scoped buffers, the accumulator's memref at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM1 fullShare d)) ∗ (∃ r, prngReg c r)) := by
  unfold Pipeline.ΦA; rw [scopedRest1_eq]; simp only [scM1, owns_whole]; try rfl

theorem PhiA1_open (c : Dev nD) :
    (Pipeline.ΦA spec1 c : sProp 𝕄) ⊢ iprop(othersHeld (F := F) c ∗ (∃ d, owns (c : Thread nD τ) scM1 fullShare d) ∗ (∃ r, prngReg c r)) := by
  rw [PhiA1_eq]; unfold othersHeld
  iintro ⟨⟨R0, R1, R2, R3, R4, R5, R6, R7, R8, R9, HS⟩, Hg⟩
  isplitl [R0 R1 R2 R3 R4 R5 R6 R7 R8 R9]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [HS]; · iexact HS
  iexact Hg

theorem PhiA1_close (c : Dev nD) :
    iprop(othersHeld (F := F) c ∗ (∃ d, owns (c : Thread nD τ) scM1 fullShare d) ∗ (∃ r, prngReg c r)) ⊢ (Pipeline.ΦA spec1 c : sProp 𝕄) := by
  rw [PhiA1_eq]; unfold othersHeld
  iintro ⟨⟨R0, R1, R2, R3, R4, R5, R6, R7, R8, R9⟩, HS, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS
  iexact Hg

/-- The invariant before position `n`: before the first point the scratch at anything; afterwards at what the point
    before left in it. The untouched scoped buffers and the generator register ride along. -/
def PhiS (c : Dev nD) : (n : ℕ) → n ≤ cfg1.N → sProp 𝕄
  | 0, _ => iprop(othersHeld (F := F) c ∗ (∃ d, owns (c : Thread nD τ) scM1 fullShare d) ∗ (∃ r, prngReg c r))
  | n + 1, hn => iprop(othersHeld (F := F) c ∗ owns (c : Thread nD τ) scM1 fullShare (acc1 V c n hn) ∗ (∃ r, prngReg c r))

theorem PhiS_zero (c : Dev nD) (n : ℕ) (h : n ≤ cfg1.N) (hz : n = 0) :
    PhiS V c n h = iprop(othersHeld (F := F) c ∗ (∃ d, owns (c : Thread nD τ) scM1 fullShare d) ∗ (∃ r, prngReg c r)) := by
  subst hz; rfl

theorem PhiS_succ (c : Dev nD) (n : ℕ) (hn : n < cfg1.N) :
    PhiS V c (n + 1) hn = iprop(othersHeld (F := F) c ∗ owns (c : Thread nD τ) scM1 fullShare (acc1 V c n hn) ∗ (∃ r, prngReg c r)) := rfl

theorem PhiS_pos (c : Dev nD) (n : ℕ) (h : n ≤ cfg1.N) (hz : n ≠ 0) :
    PhiS V c n h = iprop(othersHeld (F := F) c ∗ owns (c : Thread nD τ) scM1 fullShare (acc1 V c (n - 1) (by omega)) ∗ (∃ r, prngReg c r)) := by
  cases n with
  | zero => exact absurd rfl hz
  | succ n => rfl

/-! ## The pipeline's proof data -/

/-- The proof data on core `c`: the arrays as the region finds them; after the body each input's buffer at its block
    and the output's at the accumulator (consulted only where the window is written back); the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the library's obligation's precondition, the windows one by one), -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold the point's blocks; the position modulo 4 says which of the three
    cases the point is in; the invariant hands the body the accumulator at what the point before left (at anything
    at the first point) and takes it back at this point's contents, which the case's run leaves there; where the
    output window is idle its buffer goes back untouched, where it is live it holds the copy of the accumulator. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_first V c t h0]
    by_cases hz : t.val = 0
    · rw [PhiS_castSucc V c t, PhiS_zero V c _ _ hz]
      iintro ⟨⟨HR, HS, Hg⟩, Ho, ⟨%d0, H0⟩, ⟨%d1, H1⟩, ⟨%d2, H2⟩⟩
      iapply ((runFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact accFirst_eq c _ _ _ _ _ _ _ _ _ hc0 hc1 _ _ _ _
        iexact Hg
      isplitl [Ho]; · iexact Ho
      isplitl [H0]; · iexact H0
      isplitl [H1]; · iexact H1
      iexists _; iexact H2
    · rw [PhiS_castSucc V c t, PhiS_pos V c _ _ hz]
      iintro ⟨⟨HR, HS, Hg⟩, Ho, ⟨%d0, H0⟩, ⟨%d1, H1⟩, ⟨%d2, H2⟩⟩
      iapply ((runFirst c (grid1.coords t) _ _ _ _ _ _ _ _ hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HR HS Hg]
      · isplitl [HR]; · iexact HR
        isplitl [HS]
        · unfold owns; iexists _; isplitr
          swap; · iexact HS
          ipureintro; exact accFirst_eq c _ _ _ _ _ _ _ _ _ hc0 hc1 _ _ _ _
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [acc1_next V c t h0]
      rw [PhiS_castSucc V c t, PhiS_pos V c _ _ hz]
      iintro ⟨⟨HR, HS, Hg⟩, Ho, ⟨%d0, H0⟩, ⟨%d1, H1⟩, ⟨%d2, H2⟩⟩
      iapply ((runLast c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HR HS Hg]
      · isplitl [HR]; · iexact HR
        isplitl [HS]
        · unfold owns; iexists _; isplitr
          swap; · iexact HS
          ipureintro; exact accLast_eq c _ _ _ _ _ _ _ _ _ hc0 hc1 _ _ _ _ _
        iexact Hg
      isplitl [Ho]; · iexact Ho
      isplitl [H0]; · iexact H0
      isplitl [H1]; · iexact H1
      unfold owns; iexists _; isplitr
      swap; · iexact H2
      ipureintro; exact outLast_eq c _ _ _ _ _ _ _ _ _ hc0 hc1 _ _ _ _ _
    · have hc1 : ¬cond1_1 (grid1.coords t) := fun h => h1 ((hcond1_1 t).mp h)
      rw [Dat.leavesExact_idle (dat1 V c) 2 t (idleAt1_2 t hc1) (noFlush1_2 t hc1)]
      rw [acc1_next V c t h0]
      rw [PhiS_castSucc V c t, PhiS_pos V c _ _ hz]
      iintro ⟨⟨HR, HS, Hg⟩, Ho, ⟨%d0, H0⟩, ⟨%d1, H1⟩, ⟨%d2, H2⟩⟩
      iapply ((runMid c (grid1.coords t) _ _ _ _ _ _ _ _ hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HR HS Hg]
      · isplitl [HR]; · iexact HR
        isplitl [HS]
        · unfold owns; iexists _; isplitr
          swap; · iexact HS
          ipureintro; exact accMid_eq c _ _ _ _ _ _ _ _ _ hc0 hc1 _ _ _ _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point, taken apart. -/
theorem hin1 (c : Dev nD) : Pipeline.ΦA spec1 c ⊢ (dat1 V c).Φ 0 := by
  rw [show (dat1 V c).Φ 0 = PhiS V c 0 (Nat.zero_le _) from rfl, PhiS_zero V c 0 _ rfl]
  exact PhiA1_open c

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  refine BIBase.Entails.trans ?_ (PhiA1_close (F := F) c)
  iintro ⟨HR, HS, Hg⟩
  isplitl [HR]; · iexact HR
  isplitl [HS]; · iexists _; iexact HS
  iexact Hg

end Cert.KernelIdeal.Hand1

end
-- ==== Proof.Frames.lean ====
/-
  The two calls as regions of the program, and the program's run.
  Between the program's items every unscoped buffer is held at a named valuation: the launch memory; then the first call's
  result array at what its write-backs leave (the energies), everything else untouched; then the host operations' results
  (the softmax); then the second call's result array at what its write-backs leave. Each call's record says: its windows'
  arrays are split out of the unscoped buffers at entry and put back at exit, the generator register goes into the call's
  invariant and comes back, nothing is owed, the call has no semaphore of its own. The run then reads every unscoped
  buffer of the final memory off the last valuation: the arguments as launched, the results as computed.
-/
import proofs.«103845_j22514218566280_2_alg».proof.Proof.Region0
import proofs.«103845_j22514218566280_2_alg».proof.Proof.Region1
import proofs.«103845_j22514218566280_2_alg».proof.Proof.RunCond

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- What the first call is entered from: the launch memory, read at the TensorCore's references. -/
abbrev VA : (c : Dev nD) → (b : Ref sig .tc) → Buf (Elt F) ((c : Thread nD τ).loc b) := fun c b => Gen.V0 m c b

/-- After the first call: its arrays at what the pipeline leaves, every other buffer as launched. -/
def W1 (c : Dev nD) : Valuation τ sig (Elt F) :=
  Pipeline.withArrays spec0 c (Gen.V0 m c) fun w => (Hand0.dat0 (VA m) c).arrAt w cfg0.N
theorem W1_arr (c : Dev nD) (w : Fin cfg0.W) :
    W1 m c (Proc.devRef .tc (Pipeline.arrRef spec0 w)) = (Hand0.dat0 (VA m) c).arrAt w cfg0.N := by
  unfold W1; exact Pipeline.withArrays_arr spec0 launch0.win.arr_inj c _ _ w

/-- What the regions leave, as far as the second call's entry needs it: the energies. -/
def outs1 : Outs (F := F) := fun _ r c => W1 m c r

/-- What the second call is entered from: the host operations' results over the first call's. -/
abbrev VB : (c : Dev nD) → (b : Ref sig .tc) → Buf (Elt F) ((c : Thread nD τ).loc b) := fun c b => Gen.V2 m (outs1 m) c b

/-- After the second call: its arrays at what the pipeline leaves, every other buffer as entered. -/
def W3 (c : Dev nD) : Valuation τ sig (Elt F) :=
  Pipeline.withArrays spec1 c (Gen.V2 m (outs1 m) c) fun w => (Hand1.dat1 (VB m) c).arrAt w cfg1.N
theorem W3_arr (c : Dev nD) (w : Fin cfg1.W) :
    W3 m c (Proc.devRef .tc (Pipeline.arrRef spec1 w)) = (Hand1.dat1 (VB m) c).arrAt w cfg1.N := by
  unfold W3; exact Pipeline.withArrays_arr spec1 launch1.win.arr_inj c _ _ w

/-- What the two calls leave in their result arrays. -/
def outs : Outs (F := F) := fun J r c => if J = 3 then W3 m c r else W1 m c r

theorem outs_1 (c : Dev nD) : outs m 1 main_v0 c = (Hand0.dat0 (VA m) c).arrAt 6 cfg0.N := W1_arr m c 6
theorem outs_3 (c : Dev nD) : outs m 3 main_v14 c = (Hand1.dat1 (VB m) c).arrAt 2 cfg1.N := W3_arr m c 2

/-- The second call's entry valuation does not depend on what the second call leaves. -/
theorem V2_outs (c : Dev nD) : Gen.V2 m (outs m) c = Gen.V2 m (outs1 m) c := rfl

/-! ## The proof data family and what rides beside the buffers -/

def pdats : (p : Fin 2) → (c : Dev nD) → Dat τ (Elt F) Unit ℕ (UR sig nD τ) ℕ (cfgs p) c
  | ⟨0, _⟩ => fun c => Hand0.dat0 (VA m) c
  | ⟨1, _⟩ => fun c => Hand1.dat1 (VB m) c

abbrev 𝒱₀ : Variants := Variants.none
abbrev L : GSem nD τ sig → Finset Unit := fun _ => ∅
abbrev lv : GSem nD τ sig → Unit → ℕ := fun _ _ => 0
/-- Beside the buffers: the core's generator register at some state and its dues, at nothing. -/
abbrev R (c : Dev nD) : sProp 𝕄 := iprop((∃ r, prngReg c r) ∗ ∃ W, owes (c : Thread nD τ) (0 : CellTallies nD τ sig Unit) W)

/-! ## The calls as regions -/

/-- After the first call each of its arrays holds what the pipeline leaves: an input as launched, the result array the energies. -/
theorem hF0 (c : Dev nD) (w : Fin cfg0.W) : (Hand0.dat0 (VA m) c).arrAt w cfg0.N = Gen.V1 m (outs m) c (Pipeline.arrRef spec0 w) := by
  match w with
  | ⟨0, _⟩ => exact ((Hand0.dat0 (VA m) c).arrAt_in 0 rfl _).trans ((Hand0.A_eq0 (VA m) c 0).trans (Gen.V1_of m (outs m) c main_arg0 (by decide)).symm)
  | ⟨1, _⟩ => exact ((Hand0.dat0 (VA m) c).arrAt_in 1 rfl _).trans ((Hand0.A_eq0 (VA m) c 1).trans (Gen.V1_of m (outs m) c main_arg1 (by decide)).symm)
  | ⟨2, _⟩ => exact ((Hand0.dat0 (VA m) c).arrAt_in 2 rfl _).trans ((Hand0.A_eq0 (VA m) c 2).trans (Gen.V1_of m (outs m) c main_arg2 (by decide)).symm)
  | ⟨3, _⟩ => exact ((Hand0.dat0 (VA m) c).arrAt_in 3 rfl _).trans ((Hand0.A_eq0 (VA m) c 3).trans (Gen.V1_of m (outs m) c main_arg3 (by decide)).symm)
  | ⟨4, _⟩ => exact ((Hand0.dat0 (VA m) c).arrAt_in 4 rfl _).trans ((Hand0.A_eq0 (VA m) c 4).trans (Gen.V1_of m (outs m) c main_arg4 (by decide)).symm)
  | ⟨5, _⟩ => exact ((Hand0.dat0 (VA m) c).arrAt_in 5 rfl _).trans ((Hand0.A_eq0 (VA m) c 5).trans (Gen.V1_of m (outs m) c main_arg5 (by decide)).symm)
  | ⟨6, _⟩ =>
    show _ = Function.update (Gen.V0 m c) (Proc.devRef .tc main_v0) (outs m 1 main_v0 c) (Proc.devRef .tc main_v0)
    rw [Function.update_self]; exact (outs_1 m c).symm
/-- and every other buffer what it held at entry. -/
theorem hrest0 (c : Dev nD) : ∀ b : Ref sig .tc, b ∉ Finset.univ.image (Pipeline.arrRef spec0) → Gen.V1 m (outs m) c b = Gen.V0 m c b :=
  fun b hb => Gen.V1_of m (outs m) c b fun h => hb (Finset.mem_image.mpr ⟨6, Finset.mem_univ _, (List.mem_singleton.mp h).symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hand0.body_obligation0 (VA m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the second call each of its arrays holds what the pipeline leaves: the two inputs as entered, the result array the
    attended features. -/
theorem hF1 (c : Dev nD) (w : Fin cfg1.W) : (Hand1.dat1 (VB m) c).arrAt w cfg1.N = Gen.V3 m (outs m) c (Pipeline.arrRef spec1 w) := by
  match w with
  | ⟨0, _⟩ => exact ((Hand1.dat1 (VB m) c).arrAt_in 0 rfl _).trans ((Hand1.A_eq1 (VB m) c 0).trans (Gen.V3_of m (outs m) c main_arg1 (by decide)).symm)
  | ⟨1, _⟩ => exact ((Hand1.dat1 (VB m) c).arrAt_in 1 rfl _).trans ((Hand1.A_eq1 (VB m) c 1).trans (Gen.V3_of m (outs m) c main_v13 (by decide)).symm)
  | ⟨2, _⟩ =>
    show _ = Function.update (Gen.V2 m (outs m) c) (Proc.devRef .tc main_v14) (outs m 3 main_v14 c) (Proc.devRef .tc main_v14)
    rw [Function.update_self]; exact (outs_3 m c).symm
theorem hrest1 (c : Dev nD) : ∀ b : Ref sig .tc, b ∉ Finset.univ.image (Pipeline.arrRef spec1) → Gen.V3 m (outs m) c b = VB m c b :=
  fun b hb => Gen.V3_of m (outs m) c b fun h => hb (Finset.mem_image.mpr ⟨2, Finset.mem_univ _, (List.mem_singleton.mp h).symm⟩)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hand1.body_obligation1 (VB m) c).loose
  hwaits := Pipeline.hwaits_of_owed_zero _ _ _ _ L lv 1 fun _ _ => rfl
  pre c := iprop(StableHlo.held (c : Thread nD τ) (Pipeline.ucRefs τ sig) (Gen.V2 m (outs1 m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (Hand1.dat1 (VB m) c).Φ 0
    refine BIBase.Entails.trans ?_ (Hand1.hin1 (VB m) c)
    unfold Pipeline.ΦA
    iintro ⟨Hp, -, Hr⟩
    isplitl [Hr]; · iexact Hr
    iexact Hp
  hout c := by
    show (Hand1.dat1 (VB m) c).Φ (Fin.last cfg1.N) ⊢ _
    refine BIBase.Entails.trans (Hand1.hout1 (VB m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates, and every final memory holds
    every unscoped buffer at the last valuation. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V3 m (outs m) c b) :=
  run_cond m (Ix := Unit) (U := UR sig nD τ) (Lvl := ℕ) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- An unscoped TensorCore reference is among those the run reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V3_main_arg0 m (outs m) c),
     (h c _ (mem_uc main_arg1 (by decide))).trans (Gen.V3_main_arg1 m (outs m) c),
     (h c _ (mem_uc main_arg2 (by decide))).trans (Gen.V3_main_arg2 m (outs m) c),
     (h c _ (mem_uc main_arg3 (by decide))).trans (Gen.V3_main_arg3 m (outs m) c),
     (h c _ (mem_uc main_arg4 (by decide))).trans (Gen.V3_main_arg4 m (outs m) c),
     (h c _ (mem_uc main_arg5 (by decide))).trans (Gen.V3_main_arg5 m (outs m) c)⟩) (run_main m ρ)

end Cert.KernelIdeal.HandRun

end
-- ==== Proof.KernelHost.lean ====
/-
  The host operations the kernel's program applies between its two calls, as functions of the energies array:
  the softmax of every row over time (the row's maximum against −∞, the exponentials of the differences, their sum,
  the quotient), and its two re-layouts — with a trailing unit axis (the second result) and with a middle unit axis
  (the second call's weights operand).
-/
import proofs.«103845_j22514218566280_2_alg».proof.KernelIdeal

noncomputable section

namespace Cert.KernelIdeal.HostVal

open Cert.KernelIdeal Idealize.ShloMosaic Idealize.ShloMosaic.TcCoe

variable {F : FTy → Type} [FloatOps F] [Facts]
open Facts₀ Facts

/-- Every row's maximum over time, against −∞. -/
def rowMaxes (e : FVec F S64x512 .f32) : FVec F S64 .f32 :=
  maximumf (broadcastInDim S64 ![] bcast_S_S64 (constant S_ .f32 0xFF800000#32))
    (Host.reduce FloatOps.maximumf e (constant S_ .f32 0xFF800000#32) reducesTo_S64x512_S64_d1 h_S_)

/-- The exponentials of the entries' differences from their row's maximum. -/
def exps (e : FVec F S64x512 .f32) : FVec F S64x512 .f32 :=
  Host.exp (subf e (broadcastInDim S64x512 ![0, 1] bcast_S64x1_S64x512_0_1 (broadcastInDim S64x1 ![0] bcast_S64_S64x1_0 (rowMaxes e))))

/-- The softmax of every row. -/
def softmaxRows (e : FVec F S64x512 .f32) : FVec F S64x512 .f32 :=
  Host.divf (exps e) (broadcastInDim S64x512 ![0, 1] bcast_S64x1_S64x512_0_1 (broadcastInDim S64x1 ![0] bcast_S64_S64x1_0
    (Host.reduceAdd (exps e) (constant S_ .f32 0x00000000#32) reducesTo_S64x512_S64_d1 h_S_)))

/-- The weights with a trailing unit axis: the program's second result. -/
def weightsOut (e : FVec F S64x512 .f32) : FVec F S64x512x1 .f32 :=
  broadcastInDim S64x512x1 ![0, 1] bcast_S64x512_S64x512x1_0_1 (softmaxRows e)

/-- The weights with a middle unit axis: the second call's operand. -/
def weightsMid (e : FVec F S64x512 .f32) : FVec F S64x1x512 .f32 :=
  broadcastInDim S64x1x512 ![0, 2] bcast_S64x512_S64x1x512_0_2 (softmaxRows e)

end Cert.KernelIdeal.HostVal

end
-- ==== Proof.HostStretch.lean ====
/-
  What the host operations between the two calls leave in the two buffers the rest of the program reads: the weights
  with a trailing unit axis (the second result) and with a middle unit axis (the second call's operand), each the softmax
  of the energies array the first call left, re-laid.
-/
import proofs.«103845_j22514218566280_2_alg».proof.Proof.Gen.KernelIdeal.Regions
import proofs.«103845_j22514218566280_2_alg».proof.Proof.KernelHost
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

theorem V2_v13 (c : Dev nD) :
    (Gen.V2 m outs c (Proc.devRef .tc main_v13) : (⟨S64x1x512, .f32⟩ : BufTy).Contents (Elt F)) = weightsMid (F := F) (Gen.V1 m outs c (Proc.devRef .tc main_v0)) := by
  show StableHlo.after hostOps1 (Gen.V1 m outs c) (Proc.devRef .tc main_v13) = _
  after_results; rfl

theorem V2_v12 (c : Dev nD) :
    (Gen.V2 m outs c (Proc.devRef .tc main_v12) : (⟨S64x512x1, .f32⟩ : BufTy).Contents (Elt F)) = weightsOut (F := F) (Gen.V1 m outs c (Proc.devRef .tc main_v0)) := by
  show StableHlo.after hostOps1 (Gen.V1 m outs c) (Proc.devRef .tc main_v12) = _
  after_results; rfl

end Cert.KernelIdeal.HostVal

end
-- ==== Proof.Spec.lean ====
/-
  The attention layer both programs compute, over the extended reals, as one function of the six argument arrays.

  For a batch row `a`, a time step `t` and a bottleneck channel `k`:
    wh a k     = Σ_h hidden(a,h) · W(k,h)                       (the projected hidden state)
    uv a t k   = Σ_f feats(a,t,f) · U(k,f)                      (the projected features)
    energy a t = Σ_k tanh((wh a k + uv a t k) + b(k)) · w(0,k)   (the attention energy)
  the weights are the softmax of a row's energies over time, spelt as both programs spell it
  (the row's maximum against −∞, the exponentials of the differences, their sum, the quotient), and
    attn a f   = Σ_t feats(a,t,f) · weights a t                 (the attended features).
  Every sum is a sum of extended reals: addition and multiplication there are commutative and associative, which is all
  the two programs' different groupings of these sums need.
-/
import Idealize.ShloMosaic.PureOps.Ideal
import Idealize.ShloMosaic.Lib.ValueIdx

noncomputable section

open scoped BigOperators

namespace Cert.AttnSpec

open Idealize.ShloMosaic Idealize.ShloMosaic.ValueIdx

abbrev Hid := (⟨2, ![64, 1024]⟩ : Shape).Idx → EReal
abbrev Fts := (⟨3, ![64, 512, 2048]⟩ : Shape).Idx → EReal
abbrev Wmat := (⟨2, ![512, 1024]⟩ : Shape).Idx → EReal
abbrev Umat := (⟨2, ![512, 2048]⟩ : Shape).Idx → EReal
abbrev Bias := (⟨1, ![512]⟩ : Shape).Idx → EReal
abbrev Wrow := (⟨2, ![1, 512]⟩ : Shape).Idx → EReal

/-- The projected hidden state: row `a` of `hidden` against row `k` of `W`. -/
def wh (hid : Hid) (W : Wmat) (a : Fin 64) (k : Fin 512) : EReal :=
  ∑ h : Fin 1024, hid (ix2 a h) * W (ix2 k h)

/-- The projected features: the feature vector at `(a, t)` against row `k` of `U`. -/
def uv (fe : Fts) (U : Umat) (a : Fin 64) (t : Fin 512) (k : Fin 512) : EReal :=
  ∑ f : Fin 2048, fe (ix3 a t f) * U (ix2 k f)

/-- The attention energy of time step `t` in batch row `a`. -/
def energy (hid : Hid) (fe : Fts) (W : Wmat) (U : Umat) (b : Bias) (w : Wrow) (a : Fin 64) (t : Fin 512) : EReal :=
  ∑ k : Fin 512, Ideal.tanh (wh hid W a k + uv fe U a t k + b (ix1 k)) * w (ix2 (0 : Fin 1) k)

/-- The word both programs start a maximum from (the float −∞). -/
abbrev negInf : EReal := Ideal.ofBits .f32 0xFF800000#32

/-- A row's maximum as both programs take it: the fold of `max` from −∞, then once more against −∞. -/
def rowMax (e : Fin 512 → EReal) : EReal :=
  max negInf ((Finset.univ : Finset (Fin 512)).fold max negInf e)

/-- The exponential of an entry's difference from the row's maximum. -/
def rowExp (e : Fin 512 → EReal) (t : Fin 512) : EReal := Ideal.exp (e t - rowMax e)

/-- The sum of a row's exponentials. -/
def rowSum (e : Fin 512 → EReal) : EReal := ∑ t : Fin 512, rowExp e t

/-- The softmax of a row at `t`. -/
def softmax (e : Fin 512 → EReal) (t : Fin 512) : EReal := Ideal.div (rowExp e t) (rowSum e)

/-- The attention weight of time step `t` in batch row `a`. -/
def weights (hid : Hid) (fe : Fts) (W : Wmat) (U : Umat) (b : Bias) (w : Wrow) (a : Fin 64) (t : Fin 512) : EReal :=
  softmax (energy hid fe W U b w a) t

/-- The attended features. -/
def attn (hid : Hid) (fe : Fts) (W : Wmat) (U : Umat) (b : Bias) (w : Wrow) (a : Fin 64) (f : Fin 2048) : EReal :=
  ∑ t : Fin 512, fe (ix3 a t f) * weights hid fe W U b w a t

/-- The first result array, `[64, 2048]`. -/
def outAttn (hid : Hid) (fe : Fts) (W : Wmat) (U : Umat) (b : Bias) (w : Wrow) : (⟨2, ![64, 2048]⟩ : Shape).Idx → EReal :=
  fun j => attn hid fe W U b w (j 0) (j 1)

/-- The second result array, `[64, 512, 1]`. -/
def outWeights (hid : Hid) (fe : Fts) (W : Wmat) (U : Umat) (b : Bias) (w : Wrow) : (⟨3, ![64, 512, 1]⟩ : Shape).Idx → EReal :=
  fun j => weights hid fe W U b w (j 0) (j 1)

theorem outAttn_ix (hid : Hid) (fe : Fts) (W : Wmat) (U : Umat) (b : Bias) (w : Wrow) (a : Fin 64) (f : Fin 2048) :
    outAttn hid fe W U b w (ix2 a f) = attn hid fe W U b w a f := rfl

theorem outWeights_ix (hid : Hid) (fe : Fts) (W : Wmat) (U : Umat) (b : Bias) (w : Wrow) (a : Fin 64) (t : Fin 512) (z : Fin 1) :
    outWeights hid fe W U b w (ix3 a t z) = weights hid fe W U b w a t := rfl

end Cert.AttnSpec

end
-- ==== Proof.KernelMath.lean ====
/-
  The arithmetic of the two kernel bodies and of the softmax between them, read one element at a time over the
  extended reals.

  The first body's block: at row p and time step q, the sum over the 512 bottleneck channels k of
  tanh((Σ_h hidden(p,h)·W(k,h) + Σ_f feats(p,q,f)·U(k,f)) + b(k)) · w(0,k); the features block enters its product as a
  [1024, 2048] matrix whose row p·128+q is the feature vector at (p, q), and the product's row p·128+q comes back as
  entry (p, q) of a [8, 128, 512] array.
  The second body's blocks: the zero block, and the accumulator plus Σ_s weights(p,0,s)·feats(p,s,q).
  The softmax between the calls: each row's maximum against −∞, the exponentials of the differences, their sum, the
  quotient; and its two re-layouts, which read the same entry.
-/
import proofs.«103845_j22514218566280_2_alg».proof.Proof.Gen.KernelIdeal.Skeleton
import proofs.«103845_j22514218566280_2_alg».proof.Proof.KernelHost
import proofs.«103845_j22514218566280_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Math

open Cert.KernelIdeal Cert.KernelIdeal.Gen Idealize.ShloMosaic Idealize.ShloMosaic.ValueIdx

/-! ## The second body's zero block -/

/-- The block the second body stores at the first time step is zero everywhere. -/
theorem zero_block (p : Fin 8) (q : Fin 2048) : k1_pay1 (F := Ideal) (ix2 p q) = 0 := by
  unfold k1_pay1
  refine (shapeCast_apply _ _ (ix2 p q) (ix2 p q) rfl).trans ?_
  exact Ideal.ofBits_zero_f32

/-! ## The second body's accumulation -/

/-- Row p of a [8, 1, 2048] array, read as row p of a [8, 2048] one. -/
theorem cast_8x1x2048 {α : Type} (x : S8x1x2048.Idx → α) (h : S8x1x2048.ShapeCasts S8x2048) (p : Fin 8) (q : Fin 2048) :
    shapeCast S8x2048 x h (ix2 p q) = x (ix3 p (0 : Fin 1) q) := by
  refine shapeCast_apply x h (ix2 p q) (ix3 p (0 : Fin 1) q) ?_
  rw [Shape.rowMajor_val_three, Shape.rowMajor_val_two]
  show (p.val * 1 + 0) * 2048 + q.val = p.val * 2048 + q.val
  omega

theorem bmm_lhs0 (i : S8x1x2048.Idx) (c : dot_S8x1x128_S8x128x2048_S8x1x2048_2_1_1_2_0_0.contr.Idx) : (dot_S8x1x128_S8x128x2048_S8x1x2048_2_1_1_2_0_0.lhsIdx i c 0).val = (i 0).val := by
  unfold DotDims.lhsIdx
  rw [dif_pos (show (0 : Fin S8x1x128.rank) ∈ dot_S8x1x128_S8x128x2048_S8x1x2048_2_1_1_2_0_0.lhsBatch by decide)]
  rfl
theorem bmm_lhs1 (i : S8x1x2048.Idx) (c : dot_S8x1x128_S8x128x2048_S8x1x2048_2_1_1_2_0_0.contr.Idx) : (dot_S8x1x128_S8x128x2048_S8x1x2048_2_1_1_2_0_0.lhsIdx i c 1).val = (i 1).val := by
  unfold DotDims.lhsIdx
  rw [dif_neg (show ¬(1 : Fin S8x1x128.rank) ∈ dot_S8x1x128_S8x128x2048_S8x1x2048_2_1_1_2_0_0.lhsBatch by decide), dif_pos (show (1 : Fin S8x1x128.rank) ∈ dot_S8x1x128_S8x128x2048_S8x1x2048_2_1_1_2_0_0.lhsNonContracting by decide)]
  rfl
theorem bmm_lhs2 (i : S8x1x2048.Idx) (c : dot_S8x1x128_S8x128x2048_S8x1x2048_2_1_1_2_0_0.contr.Idx) : (dot_S8x1x128_S8x128x2048_S8x1x2048_2_1_1_2_0_0.lhsIdx i c 2).val = (c ⟨0, by decide⟩).val :=
  dot_S8x1x128_S8x128x2048_S8x1x2048_2_1_1_2_0_0.lhsIdx_val_of_single rfl i c
theorem bmm_rhs0 (i : S8x1x2048.Idx) (c : dot_S8x1x128_S8x128x2048_S8x1x2048_2_1_1_2_0_0.contr.Idx) : (dot_S8x1x128_S8x128x2048_S8x1x2048_2_1_1_2_0_0.rhsIdx i c 0).val = (i 0).val := by
  unfold DotDims.rhsIdx
  rw [dif_pos (show (0 : Fin S8x128x2048.rank) ∈ dot_S8x1x128_S8x128x2048_S8x1x2048_2_1_1_2_0_0.rhsBatch by decide)]
  rfl
theorem bmm_rhs1 (i : S8x1x2048.Idx) (c : dot_S8x1x128_S8x128x2048_S8x1x2048_2_1_1_2_0_0.contr.Idx) : (dot_S8x1x128_S8x128x2048_S8x1x2048_2_1_1_2_0_0.rhsIdx i c 1).val = (c ⟨0, by decide⟩).val :=
  dot_S8x1x128_S8x128x2048_S8x1x2048_2_1_1_2_0_0.rhsIdx_val_of_single rfl i c
theorem bmm_rhs2 (i : S8x1x2048.Idx) (c : dot_S8x1x128_S8x128x2048_S8x1x2048_2_1_1_2_0_0.contr.Idx) : (dot_S8x1x128_S8x128x2048_S8x1x2048_2_1_1_2_0_0.rhsIdx i c 2).val = (i 2).val := by
  unfold DotDims.rhsIdx
  rw [dif_neg (show ¬(2 : Fin S8x128x2048.rank) ∈ dot_S8x1x128_S8x128x2048_S8x1x2048_2_1_1_2_0_0.rhsBatch by decide), dif_pos (show (2 : Fin S8x128x2048.rank) ∈ dot_S8x1x128_S8x128x2048_S8x1x2048_2_1_1_2_0_0.rhsNonContracting by decide)]
  rfl

/-- The batched product into a zero accumulator: for batch row p, the one row z of the left operand against column q
    of the right operand's matrix p, summed over the 128 time steps of the block. -/
theorem bmm_apply {φ₁ φ₂ : FTy} (l : FVec Ideal S8x1x128 φ₁) (r : FVec Ideal S8x128x2048 φ₂) (p : Fin 8) (z : Fin 1) (q : Fin 2048) :
    matmul dot_S8x1x128_S8x128x2048_S8x1x2048_2_1_1_2_0_0 none l r (constant S8x1x2048 .f32 0x00000000#32) (ix3 p z q)
      = ∑ s : Fin 128, l (ix3 p z s) * r (ix3 p s q) := by
  refine (Ideal.matmul_constant_zero_apply dot_S8x1x128_S8x128x2048_S8x1x2048_2_1_1_2_0_0 none l r (ix3 p z q)).trans ?_
  rw [← Equiv.sum_comp (contrEquiv1 dot_S8x1x128_S8x128x2048_S8x1x2048_2_1_1_2_0_0 128 rfl rfl).symm]
  refine Finset.sum_congr rfl fun s _ => ?_
  have hs := contrEquiv1_symm_val dot_S8x1x128_S8x128x2048_S8x1x2048_2_1_1_2_0_0 128 rfl rfl s
  have el : dot_S8x1x128_S8x128x2048_S8x1x2048_2_1_1_2_0_0.lhsIdx (ix3 p z q) ((contrEquiv1 dot_S8x1x128_S8x128x2048_S8x1x2048_2_1_1_2_0_0 128 rfl rfl).symm s) = ix3 p z s := funext fun a => Fin.ext (by
    match a with
    | ⟨0, _⟩ => exact bmm_lhs0 _ _
    | ⟨1, _⟩ => exact bmm_lhs1 _ _
    | ⟨2, _⟩ => exact (bmm_lhs2 _ _).trans hs)
  have er : dot_S8x1x128_S8x128x2048_S8x1x2048_2_1_1_2_0_0.rhsIdx (ix3 p z q) ((contrEquiv1 dot_S8x1x128_S8x128x2048_S8x1x2048_2_1_1_2_0_0 128 rfl rfl).symm s) = ix3 p s q := funext fun a => Fin.ext (by
    match a with
    | ⟨0, _⟩ => exact bmm_rhs0 _ _
    | ⟨1, _⟩ => exact (bmm_rhs1 _ _).trans hs
    | ⟨2, _⟩ => exact bmm_rhs2 _ _)
  rw [el, er]

/-- The block the second body stores: the accumulator plus the block's weighted sum of feature vectors. -/
theorem acc_block (v3 : FVec Ideal S8x128x2048 .f32) (v5 : FVec Ideal S8x1x128 .f32) (v9 : FVec Ideal S8x2048 .f32) (p : Fin 8) (q : Fin 2048) :
    k1_pay2 (F := Ideal) v3 v5 v9 (ix2 p q) = v9 (ix2 p q) + ∑ s : Fin 128, v5 (ix3 p (0 : Fin 1) s) * v3 (ix3 p s q) := by
  unfold k1_pay2
  refine (shapeCast_apply _ _ (ix2 p q) (ix2 p q) rfl).trans ?_
  show v9 (ix2 p q) + _ = _
  refine congrArg (v9 (ix2 p q) + ·) ?_
  refine (cast_8x1x2048 _ _ p q).trans ?_
  refine (bmm_apply _ _ p (0 : Fin 1) q).trans ?_
  refine Finset.sum_congr rfl fun s _ => ?_
  refine congrArg (· * v3 (ix3 p s q)) ?_
  exact shapeCast_apply v5 _ (ix3 p (0 : Fin 1) s) (ix3 p (0 : Fin 1) s) rfl

/-! ## The softmax between the two calls -/

section Softmax
variable [Facts]

/-- The weights with a trailing unit axis read the softmax at the same row and time step. -/
theorem weightsOut_apply (e : FVec Ideal S64x512 .f32) (a : Fin 64) (t : Fin 512) (z : Fin 1) :
    HostVal.weightsOut (F := Ideal) e (ix3 a t z) = HostVal.softmaxRows (F := Ideal) e (ix2 a t) := by
  unfold HostVal.weightsOut
  generalize HostVal.softmaxRows (F := Ideal) e = y
  exact broadcastInDim_apply _ Facts₀.bcast_S64x512_S64x512x1_0_1 y (ix3 a t z) (ix2 a t) (fun b => match b with
    | ⟨0, _⟩ => by show a.val = if (64 : Nat) = 1 then 0 else a.val; rw [if_neg (by decide)]
    | ⟨1, _⟩ => by show t.val = if (512 : Nat) = 1 then 0 else t.val; rw [if_neg (by decide)])

/-- The weights with a middle unit axis read the softmax at the same row and time step. -/
theorem weightsMid_apply (e : FVec Ideal S64x512 .f32) (a : Fin 64) (z : Fin 1) (t : Fin 512) :
    HostVal.weightsMid (F := Ideal) e (ix3 a z t) = HostVal.softmaxRows (F := Ideal) e (ix2 a t) := by
  unfold HostVal.weightsMid
  generalize HostVal.softmaxRows (F := Ideal) e = y
  exact broadcastInDim_apply _ Facts₀.bcast_S64x512_S64x1x512_0_2 y (ix3 a z t) (ix2 a t) (fun b => match b with
    | ⟨0, _⟩ => by show a.val = if (64 : Nat) = 1 then 0 else a.val; rw [if_neg (by decide)]
    | ⟨1, _⟩ => by show t.val = if (512 : Nat) = 1 then 0 else t.val; rw [if_neg (by decide)])

/-- Row a of the energies with time step k put back is entry (a, k). -/
theorem lift_row (h : S64x512.Reduces [1] S64) (a : Fin 64) (k : Fin (S64x512.size 1)) :
    h.lift (ix1 a) k = ix2 a (⟨k.val, k.isLt⟩ : Fin 512) := by
  funext c; apply Fin.ext
  fin_cases c <;> rfl

/-- A per-row value spread along time: entry (a, t) reads row a's value. -/
theorem col_apply {α : Type} (y : S64.Idx → α) (h1 : S64.BroadcastsInDim S64x1 (![0] : Fin 1 → Fin S64x1.rank))
    (h2 : S64x1.BroadcastsInDim S64x512 (![0, 1] : Fin 2 → Fin S64x512.rank)) (a : Fin 64) (t : Fin 512) :
    broadcastInDim S64x512 ![0, 1] h2 (broadcastInDim S64x1 ![0] h1 y) (ix2 a t) = y (ix1 a) := by
  refine (broadcastInDim_apply _ h2 _ (ix2 a t) (ix2 a (0 : Fin 1)) (fun b => match b with
    | ⟨0, _⟩ => by show a.val = if (64 : Nat) = 1 then 0 else a.val; rw [if_neg (by decide)]
    | ⟨1, _⟩ => by show 0 = if (1 : Nat) = 1 then 0 else t.val; rw [if_pos rfl])).trans ?_
  exact broadcastInDim_apply _ h1 y (ix2 a (0 : Fin 1)) (ix1 a) (fun b => match b with
    | ⟨0, _⟩ => by show a.val = if (64 : Nat) = 1 then 0 else a.val; rw [if_neg (by decide)])

/-- Row a's maximum: the fold of max over the row from −∞, then once more against −∞. -/
theorem rowMaxes_apply (e : FVec Ideal S64x512 .f32) (a : Fin 64) :
    HostVal.rowMaxes (F := Ideal) e (ix1 a) = Cert.AttnSpec.rowMax (fun s => e (ix2 a s)) := by
  unfold HostVal.rowMaxes Cert.AttnSpec.rowMax
  show max (Ideal.ofBits .f32 0xFF800000#32) (Host.reduce FloatOps.maximumf e (constant (F := Ideal) S_ .f32 0xFF800000#32) _ _ (ix1 a)) = _
  refine congrArg (max (Ideal.ofBits .f32 0xFF800000#32)) ?_
  have h : S64x512.Reduces [1] S64 := by decide
  rw [Host.reduce_eq_fold_single FloatOps.maximumf e _ Facts₀.reducesTo_S64x512_S64_d1 h Facts₀.h_S_]
  have hf : (e ∘ h.lift (ix1 a)) = fun k : Fin 512 => e (ix2 a k) := funext fun k => congrArg e (lift_row h a k)
  exact congrArg (fun f => Finset.fold max (Ideal.ofBits .f32 0xFF800000#32) f (Finset.univ : Finset (Fin 512))) hf

/-- The exponential of an entry's difference from its row's maximum. -/
theorem exps_apply (e : FVec Ideal S64x512 .f32) (a : Fin 64) (t : Fin 512) :
    HostVal.exps (F := Ideal) e (ix2 a t) = Cert.AttnSpec.rowExp (fun s => e (ix2 a s)) t := by
  unfold HostVal.exps Cert.AttnSpec.rowExp
  show Ideal.exp (e (ix2 a t) - _) = _
  refine congrArg (fun m => Ideal.exp (e (ix2 a t) - m)) ?_
  exact (col_apply _ _ _ a t).trans (rowMaxes_apply e a)

/-- The host's sum of a row from the zero word is the sum of the row's entries. -/
theorem rowSum_apply (y : FVec Ideal S64x512 .f32) (h' : S64x512.ReducesTo [1] S64) (hu : 0 < S_.numel) (a : Fin 64) :
    Host.reduceAdd y (constant (F := Ideal) S_ .f32 0x00000000#32) h' hu (ix1 a) = ∑ t : Fin 512, y (ix2 a t) := by
  simp only [Host.reduceAdd, Ideal.hostReduceAdd_def]
  rw [Ideal.hostReduceAdd_single h' (by decide)]
  show Ideal.ofBits .f32 0x00000000#32 + _ = _
  rw [Ideal.ofBits_zero_f32, zero_add]
  exact Finset.sum_congr rfl fun k _ => congrArg y (lift_row _ a k)

/-- The softmax of row a at time step t. -/
theorem softmaxRows_apply (e : FVec Ideal S64x512 .f32) (a : Fin 64) (t : Fin 512) :
    HostVal.softmaxRows (F := Ideal) e (ix2 a t) = Cert.AttnSpec.softmax (fun s => e (ix2 a s)) t := by
  unfold HostVal.softmaxRows Cert.AttnSpec.softmax Cert.AttnSpec.rowSum
  show Ideal.div (HostVal.exps (F := Ideal) e (ix2 a t)) _ = _
  refine congrArg₂ Ideal.div (exps_apply e a t) ?_
  refine (col_apply _ _ _ a t).trans ?_
  refine (rowSum_apply _ _ _ a).trans ?_
  exact Finset.sum_congr rfl fun k _ => exps_apply e a k

end Softmax

/-! ## The first body's energies -/

theorem mmH_lhs0 (i : S8x512.Idx) (c : dot_S8x1024_S512x1024_S8x512_1_1_0_0_n_n.contr.Idx) : (dot_S8x1024_S512x1024_S8x512_1_1_0_0_n_n.lhsIdx i c 0).val = (i 0).val := by
  unfold DotDims.lhsIdx
  rw [dif_neg (show ¬(0 : Fin S8x1024.rank) ∈ dot_S8x1024_S512x1024_S8x512_1_1_0_0_n_n.lhsBatch by decide), dif_pos (show (0 : Fin S8x1024.rank) ∈ dot_S8x1024_S512x1024_S8x512_1_1_0_0_n_n.lhsNonContracting by decide)]
  rfl
theorem mmH_lhs1 (i : S8x512.Idx) (c : dot_S8x1024_S512x1024_S8x512_1_1_0_0_n_n.contr.Idx) : (dot_S8x1024_S512x1024_S8x512_1_1_0_0_n_n.lhsIdx i c 1).val = (c ⟨0, by decide⟩).val :=
  dot_S8x1024_S512x1024_S8x512_1_1_0_0_n_n.lhsIdx_val_of_single rfl i c
theorem mmH_rhs0 (i : S8x512.Idx) (c : dot_S8x1024_S512x1024_S8x512_1_1_0_0_n_n.contr.Idx) : (dot_S8x1024_S512x1024_S8x512_1_1_0_0_n_n.rhsIdx i c 0).val = (i 1).val := by
  unfold DotDims.rhsIdx
  rw [dif_neg (show ¬(0 : Fin S512x1024.rank) ∈ dot_S8x1024_S512x1024_S8x512_1_1_0_0_n_n.rhsBatch by decide), dif_pos (show (0 : Fin S512x1024.rank) ∈ dot_S8x1024_S512x1024_S8x512_1_1_0_0_n_n.rhsNonContracting by decide)]
  rfl
theorem mmH_rhs1 (i : S8x512.Idx) (c : dot_S8x1024_S512x1024_S8x512_1_1_0_0_n_n.contr.Idx) : (dot_S8x1024_S512x1024_S8x512_1_1_0_0_n_n.rhsIdx i c 1).val = (c ⟨0, by decide⟩).val :=
  dot_S8x1024_S512x1024_S8x512_1_1_0_0_n_n.rhsIdx_val_of_single rfl i c

/-- The hidden block's product into a zero accumulator: row p of the left operand against row k of the right one. -/
theorem mmH_apply {φ₁ φ₂ : FTy} (l : FVec Ideal S8x1024 φ₁) (r : FVec Ideal S512x1024 φ₂) (p : Fin 8) (k : Fin 512) :
    matmul dot_S8x1024_S512x1024_S8x512_1_1_0_0_n_n none l r (constant S8x512 .f32 0x00000000#32) (ix2 p k)
      = ∑ h : Fin 1024, l (ix2 p h) * r (ix2 k h) := by
  refine (Ideal.matmul_constant_zero_apply dot_S8x1024_S512x1024_S8x512_1_1_0_0_n_n none l r (ix2 p k)).trans ?_
  rw [← Equiv.sum_comp (contrEquiv1 dot_S8x1024_S512x1024_S8x512_1_1_0_0_n_n 1024 rfl rfl).symm]
  refine Finset.sum_congr rfl fun h _ => ?_
  have hh := contrEquiv1_symm_val dot_S8x1024_S512x1024_S8x512_1_1_0_0_n_n 1024 rfl rfl h
  have el : dot_S8x1024_S512x1024_S8x512_1_1_0_0_n_n.lhsIdx (ix2 p k) ((contrEquiv1 dot_S8x1024_S512x1024_S8x512_1_1_0_0_n_n 1024 rfl rfl).symm h) = ix2 p h := funext fun a => Fin.ext (by
    match a with
    | ⟨0, _⟩ => exact mmH_lhs0 _ _
    | ⟨1, _⟩ => exact (mmH_lhs1 _ _).trans hh)
  have er : dot_S8x1024_S512x1024_S8x512_1_1_0_0_n_n.rhsIdx (ix2 p k) ((contrEquiv1 dot_S8x1024_S512x1024_S8x512_1_1_0_0_n_n 1024 rfl rfl).symm h) = ix2 k h := funext fun a => Fin.ext (by
    match a with
    | ⟨0, _⟩ => exact mmH_rhs0 _ _
    | ⟨1, _⟩ => exact (mmH_rhs1 _ _).trans hh)
  rw [el, er]

theorem mmF_lhs0 (i : S1024x512.Idx) (c : dot_S1024x2048_S512x2048_S1024x512_1_1_0_0_n_n.contr.Idx) : (dot_S1024x2048_S512x2048_S1024x512_1_1_0_0_n_n.lhsIdx i c 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem mmF_lhs1 (i : S1024x512.Idx) (c : dot_S1024x2048_S512x2048_S1024x512_1_1_0_0_n_n.contr.Idx) : (dot_S1024x2048_S512x2048_S1024x512_1_1_0_0_n_n.lhsIdx i c 1).val = (c ⟨0, by decide⟩).val :=
  dot_S1024x2048_S512x2048_S1024x512_1_1_0_0_n_n.lhsIdx_val_of_single rfl i c
theorem mmF_rhs0 (i : S1024x512.Idx) (c : dot_S1024x2048_S512x2048_S1024x512_1_1_0_0_n_n.contr.Idx) : (dot_S1024x2048_S512x2048_S1024x512_1_1_0_0_n_n.rhsIdx i c 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem mmF_rhs1 (i : S1024x512.Idx) (c : dot_S1024x2048_S512x2048_S1024x512_1_1_0_0_n_n.contr.Idx) : (dot_S1024x2048_S512x2048_S1024x512_1_1_0_0_n_n.rhsIdx i c 1).val = (c ⟨0, by decide⟩).val :=
  dot_S1024x2048_S512x2048_S1024x512_1_1_0_0_n_n.rhsIdx_val_of_single rfl i c

/-- The features' product into a zero accumulator: row p of the left operand against row k of the right one. -/
theorem mmF_apply {φ₁ φ₂ : FTy} (l : FVec Ideal S1024x2048 φ₁) (r : FVec Ideal S512x2048 φ₂) (p : Fin 1024) (k : Fin 512) :
    matmul dot_S1024x2048_S512x2048_S1024x512_1_1_0_0_n_n none l r (constant S1024x512 .f32 0x00000000#32) (ix2 p k)
      = ∑ h : Fin 2048, l (ix2 p h) * r (ix2 k h) := by
  refine (Ideal.matmul_constant_zero_apply dot_S1024x2048_S512x2048_S1024x512_1_1_0_0_n_n none l r (ix2 p k)).trans ?_
  rw [← Equiv.sum_comp (contrEquiv1 dot_S1024x2048_S512x2048_S1024x512_1_1_0_0_n_n 2048 rfl rfl).symm]
  refine Finset.sum_congr rfl fun h _ => ?_
  have hh := contrEquiv1_symm_val dot_S1024x2048_S512x2048_S1024x512_1_1_0_0_n_n 2048 rfl rfl h
  have el : dot_S1024x2048_S512x2048_S1024x512_1_1_0_0_n_n.lhsIdx (ix2 p k) ((contrEquiv1 dot_S1024x2048_S512x2048_S1024x512_1_1_0_0_n_n 2048 rfl rfl).symm h) = ix2 p h := funext fun a => Fin.ext (by
    match a with
    | ⟨0, _⟩ => exact mmF_lhs0 _ _
    | ⟨1, _⟩ => exact (mmF_lhs1 _ _).trans hh)
  have er : dot_S1024x2048_S512x2048_S1024x512_1_1_0_0_n_n.rhsIdx (ix2 p k) ((contrEquiv1 dot_S1024x2048_S512x2048_S1024x512_1_1_0_0_n_n 2048 rfl rfl).symm h) = ix2 k h := funext fun a => Fin.ext (by
    match a with
    | ⟨0, _⟩ => exact mmF_rhs0 _ _
    | ⟨1, _⟩ => exact (mmF_rhs1 _ _).trans hh)
  rw [el, er]

/-- The features block as a [1024, 2048] matrix: row p·128+q is the feature vector at (p, q). -/
theorem cast_8x128x2048 {α : Type} (x : S8x128x2048.Idx → α) (h : S8x128x2048.ShapeCasts S1024x2048) (p : Fin 8) (q : Fin 128)
    (f : Fin 2048) (r : Fin 1024) (hr : r.val = p.val * 128 + q.val) :
    shapeCast S1024x2048 x h (ix2 r f) = x (ix3 p q f) := by
  refine shapeCast_apply x h (ix2 r f) (ix3 p q f) ?_
  rw [Shape.rowMajor_val_three, Shape.rowMajor_val_two]
  show (p.val * 128 + q.val) * 2048 + f.val = r.val * 2048 + f.val
  rw [hr]

/-- A [1024, 512] matrix as a [8, 128, 512] array: entry (p, q) is row p·128+q. -/
theorem cast_1024x512 {α : Type} (x : S1024x512.Idx → α) (h : S1024x512.ShapeCasts S8x128x512) (p : Fin 8) (q : Fin 128)
    (k : Fin 512) (r : Fin 1024) (hr : r.val = p.val * 128 + q.val) :
    shapeCast S8x128x512 x h (ix3 p q k) = x (ix2 r k) := by
  refine shapeCast_apply x h (ix3 p q k) (ix2 r k) ?_
  rw [Shape.rowMajor_val_three, Shape.rowMajor_val_two]
  show r.val * 512 + k.val = (p.val * 128 + q.val) * 512 + k.val
  rw [hr]

/-- A [8, 512] matrix with a middle unit axis: entry (p, z, k) is entry (p, k). -/
theorem cast_8x512 {α : Type} (x : S8x512.Idx → α) (h : S8x512.ShapeCasts S8x1x512) (p : Fin 8) (z : Fin 1) (k : Fin 512) :
    shapeCast S8x1x512 x h (ix3 p z k) = x (ix2 p k) := by
  refine shapeCast_apply x h (ix3 p z k) (ix2 p k) ?_
  rw [Shape.rowMajor_val_three, Shape.rowMajor_val_two]
  show p.val * 512 + k.val = (p.val * 1 + z.val) * 512 + k.val
  have := z.isLt
  omega

/-- A [8, 1, 512] array spread over the 128 time steps: entry (p, q, k) reads (p, 0, k). -/
theorem bcast_8x1x512 {α : Type} (x : S8x1x512.Idx → α) (h : S8x1x512.Broadcasts S8x128x512) (p : Fin 8) (q : Fin 128) (k : Fin 512) :
    broadcastTo S8x128x512 x h (ix3 p q k) = x (ix3 p (0 : Fin 1) k) :=
  broadcastTo_apply x h (ix3 p q k) (ix3 p (0 : Fin 1) k) (fun a => match a with
    | ⟨0, _⟩ => by show p.val = if (8 : Nat) = 1 then 0 else p.val; rw [if_neg (by decide)]
    | ⟨1, _⟩ => by show 0 = if (1 : Nat) = 1 then 0 else q.val; rw [if_pos rfl]
    | ⟨2, _⟩ => by show k.val = if (512 : Nat) = 1 then 0 else k.val; rw [if_neg (by decide)])

/-- A vector of 512 entries with two leading unit axes: entry (z, z', k) is entry k. -/
theorem cast_512 {α : Type} (x : S512.Idx → α) (h : S512.ShapeCasts S1x1x512) (z z' : Fin 1) (k : Fin 512) :
    shapeCast S1x1x512 x h (ix3 z z' k) = x (ix1 k) := by
  refine shapeCast_apply x h (ix3 z z' k) (ix1 k) ?_
  rw [Shape.rowMajor_val_three, Shape.rowMajor_val_one]
  show k.val = (z.val * 1 + z'.val) * 512 + k.val
  have := z.isLt
  have := z'.isLt
  omega

/-- A [1, 1, 512] array spread over rows and time steps: entry (p, q, k) reads (0, 0, k). -/
theorem bcast_1x1x512 {α : Type} (x : S1x1x512.Idx → α) (h : S1x1x512.Broadcasts S8x128x512) (p : Fin 8) (q : Fin 128) (k : Fin 512) :
    broadcastTo S8x128x512 x h (ix3 p q k) = x (ix3 (0 : Fin 1) (0 : Fin 1) k) :=
  broadcastTo_apply x h (ix3 p q k) (ix3 (0 : Fin 1) (0 : Fin 1) k) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show k.val = if (512 : Nat) = 1 then 0 else k.val; rw [if_neg (by decide)])

/-- A [1, 512] row as a vector: entry k is entry (0, k). -/
theorem cast_1x512 {α : Type} (x : S1x512.Idx → α) (h : S1x512.ShapeCasts S512) (k : Fin 512) :
    shapeCast S512 x h (ix1 k) = x (ix2 (0 : Fin 1) k) := by
  refine shapeCast_apply x h (ix1 k) (ix2 (0 : Fin 1) k) ?_
  rw [Shape.rowMajor_val_two, Shape.rowMajor_val_one]
  show 0 * 512 + k.val = k.val
  omega

/-- The sum over the last axis from the zero word: entry (p, q) is the sum over the 512 channels. -/
theorem laneSum_apply (src : FVec Ideal S8x128x512 .f32) (h : S8x128x512.Reduces [2] S8x128) (hφ : FKind.Formats .f32)
    (hacc : (0x00000000#32 : BitVec 32) = FKind.add.neutral .f32 hφ) (p : Fin 8) (q : Fin 128) :
    multiReduction .add [2] S8x128 src 0x00000000#32 h hφ hacc (ix2 p q) = ∑ k : Fin 512, src (ix3 p q k) := by
  refine (Ideal.multiReduction_add_single src 0x00000000#32 h hφ hacc (ix2 p q)).trans ?_
  refine Finset.sum_congr rfl fun k _ => congrArg src ?_
  funext c; apply Fin.ext
  fin_cases c <;> rfl

/-- The block the first body stores: the attention energies of the block's rows and time steps. -/
theorem energy_block (x0 : FVec Ideal S8x1024 .f32) (x2 : FVec Ideal S512x1024 .f32) (x1 : FVec Ideal S8x128x2048 .f32)
    (x3 : FVec Ideal S512x2048 .f32) (x4 : FVec Ideal S512 .f32) (x5 : FVec Ideal S1x512 .f32) (p : Fin 8) (q : Fin 128) :
    k0_pay1 (F := Ideal) x0 x2 x1 x3 x4 x5 (ix2 p q)
      = ∑ k : Fin 512, Ideal.tanh ((∑ h : Fin 1024, x0 (ix2 p h) * x2 (ix2 k h)) + (∑ f : Fin 2048, x1 (ix3 p q f) * x3 (ix2 k f)) + x4 (ix1 k))
          * x5 (ix2 (0 : Fin 1) k) := by
  unfold k0_pay1
  refine (laneSum_apply _ _ _ _ p q).trans ?_
  refine Finset.sum_congr rfl fun k _ => ?_
  show Ideal.tanh ((_ + _) + _) * _ = _
  have hr : ((⟨p.val * 128 + q.val, by have := p.isLt; have := q.isLt; omega⟩ : Fin 1024)).val = p.val * 128 + q.val := rfl
  refine congrArg₂ (fun u v => Ideal.tanh u * v) (congrArg₂ (· + ·) (congrArg₂ (· + ·) ?_ ?_) ?_) ?_
  · refine (bcast_8x1x512 _ _ p q k).trans ?_
    refine (cast_8x512 _ _ p (0 : Fin 1) k).trans ?_
    exact mmH_apply _ _ p k
  · refine (cast_1024x512 _ _ p q k _ hr).trans ?_
    refine (mmF_apply _ _ _ k).trans ?_
    refine Finset.sum_congr rfl fun f _ => ?_
    refine congrArg (· * x3 (ix2 k f)) ?_
    exact cast_8x128x2048 x1 _ p q f _ hr
  · refine (bcast_1x1x512 _ _ p q k).trans ?_
    exact cast_512 x4 _ (0 : Fin 1) (0 : Fin 1) k
  · refine (bcast_1x1x512 _ _ p q k).trans ?_
    refine (cast_512 _ _ (0 : Fin 1) (0 : Fin 1) k).trans ?_
    exact cast_1x512 x5 _ k

end Cert.KernelIdeal.Math

end
-- ==== Proof.EnergyArray.lean ====
/-
  The energies as one array: what the first call leaves in its result.

  The call runs over an 8 × 4 grid; point t = 4·bi + ti loads rows 8·bi … 8·bi + 7 of the hidden state, the feature
  block of those rows at time steps 128·ti … 128·ti + 127, and the four parameter arrays whole, and writes back the
  [8, 128] tile of energies of those rows and time steps at block (bi, ti) of the [64, 512] result.  So the tile at
  (p, q) is the energy of row 8·bi + p at time step 128·ti + q, every block written back is the block of ONE function
  of the argument arrays (the specification's energy, index by index), and the 32 blocks tile the result: index (r, s)
  lies in the block of the point with bi = r / 8 and ti = s / 128.  Hence the result ends holding that function.
-/
import proofs.«103845_j22514218566280_2_alg».proof.Proof.Region0
import proofs.«103845_j22514218566280_2_alg».proof.Proof.KernelMath
import proofs.«103845_j22514218566280_2_alg».proof.Proof.Spec
import Idealize.ShloMosaic.Lib.Pipeline.Value
import Idealize.ShloMosaic.Lib.ValueIdx

noncomputable section

open scoped BigOperators

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand0 Cert.AttnSpec

/-! ## The tile's entries are energies -/

/-- The energies as one array over the result's index. -/
def energyArr (A0 : Hid) (A1 : Fts) (A2 : Wmat) (A3 : Umat) (A4 : Bias) (A5 : Wrow) : S64x512.Idx → EReal :=
  fun j => energy A0 A1 A2 A3 A4 A5 (j 0) (j 1)

theorem energyArr_ix (A0 : Hid) (A1 : Fts) (A2 : Wmat) (A3 : Umat) (A4 : Bias) (A5 : Wrow) (r : Fin 64) (s : Fin 512) :
    energyArr A0 A1 A2 A3 A4 A5 (ix2 r s) = energy A0 A1 A2 A3 A4 A5 r s := rfl

/-- A tile entry whose hidden row is row `r` of the hidden state, whose feature vector is the one at `(r, s)`, and
    whose parameter blocks are the parameter arrays, is the energy of time step `s` in row `r`. -/
theorem tile_energy (hblk : ∀ (x0 : FVec Ideal S8x1024 .f32) (x2 : FVec Ideal S512x1024 .f32) (x1 : FVec Ideal S8x128x2048 .f32)
      (x3 : FVec Ideal S512x2048 .f32) (x4 : FVec Ideal S512 .f32) (x5 : FVec Ideal S1x512 .f32) (p : Fin 8) (q : Fin 128),
      k0_pay1 (F := Ideal) x0 x2 x1 x3 x4 x5 (ix2 p q)
        = ∑ k : Fin 512, Ideal.tanh ((∑ h : Fin 1024, x0 (ix2 p h) * x2 (ix2 k h)) + (∑ f : Fin 2048, x1 (ix3 p q f) * x3 (ix2 k f)) + x4 (ix1 k))
            * x5 (ix2 (0 : Fin 1) k))
    (A0 : Hid) (A1 : Fts) (A2 : Wmat) (A3 : Umat) (A4 : Bias) (A5 : Wrow)
    (x0 : FVec Ideal S8x1024 .f32) (x1 : FVec Ideal S8x128x2048 .f32) (x2 : FVec Ideal S512x1024 .f32)
    (x3 : FVec Ideal S512x2048 .f32) (x4 : FVec Ideal S512 .f32) (x5 : FVec Ideal S1x512 .f32)
    (j : S8x128.Idx) (p : Fin 8) (q : Fin 128) (hp : (j 0).val = p.val) (hq : (j 1).val = q.val) (r : Fin 64) (s : Fin 512)
    (h0 : ∀ h : Fin 1024, x0 (ix2 p h) = A0 (ix2 r h))
    (h1 : ∀ f : Fin 2048, x1 (ix3 p q f) = A1 (ix3 r s f))
    (h2 : ∀ i, x2 i = A2 i) (h3 : ∀ i, x3 i = A3 i) (h4 : ∀ i, x4 i = A4 i) (h5 : ∀ i, x5 i = A5 i) :
    k0_pay1 (F := Ideal) x0 x2 x1 x3 x4 x5 j = energy A0 A1 A2 A3 A4 A5 r s := by
  have hj : j = ix2 p q := funext fun d => Fin.ext (by match d with | ⟨0, _⟩ => exact hp | ⟨1, _⟩ => exact hq)
  subst hj
  rw [hblk]
  unfold energy wh uv
  simp only [h0, h1, h2, h3, h4, h5]

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The hidden rows' block index at point `t`: (t / 4, 0). -/
theorem idx_hidden : ∀ t : Fin cfg0.N, win0_0.index t (0 : Fin 2) = t.val / 4 ∧ win0_0.index t (1 : Fin 2) = 0 :=
  (by decide +kernel : ∀ t : Fin grid0.N, _)

/-- The feature block's index at point `t`: (t / 4, t % 4, 0). -/
theorem idx_feats : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- The four parameter arrays are staged whole: block index zero at every point. -/
theorem idx_params : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- The result tile's block index at point `t`: (t / 4, t % 4). -/
theorem idx_tile : ∀ t : Fin cfg0.N, win0_6.index t (0 : Fin 2) = t.val / 4 ∧ win0_6.index t (1 : Fin 2) = t.val % 4 :=
  (by decide +kernel : ∀ t : Fin grid0.N, _)

/-- Every block of the result is some point's. -/
theorem idx_tile_onto : ∀ (q0 : Fin 8) (q1 : Fin 4), ∃ t : Fin cfg0.N, win0_6.index t = ![q0.val, q1.val] :=
  (by decide +kernel : ∀ (q0 : Fin 8) (q1 : Fin 4), ∃ t : Fin grid0.N, win0_6.index t = ![q0.val, q1.val])

/-! ## The input blocks, read off the arrays -/

variable (V : (c : Dev nD) → (b : Ref sig .tc) → Buf (Elt Ideal) ((c : Thread nD τ).loc b))

/-- The hidden block at point `t` is rows 8·(t / 4) … of the hidden state. -/
theorem hidden_block (c : Dev nD) (t : Fin cfg0.N) (x : S8x1024.Idx) (k : S64x1024.Idx)
    (hk0 : (k 0).val = 8 * (t.val / 4) + (x 0).val) (hk1 : (k 1).val = (x 1).val) :
    (iblk0 V c 0 t : Vec Ideal S8x1024 .f32) x = (V c main_arg0 : S64x1024.Idx → EReal) k := by
  obtain ⟨e0, e1⟩ := idx_hidden t
  unfold iblk0
  rw [View.read_apply]
  show V c main_arg0 _ = V c main_arg0 _
  congr 1
  funext a
  apply Fin.ext
  match a with
  | ⟨0, _⟩ => show win0_0.index t (0 : Fin 2) * 8 + 1 * (x 0).val = (k 0).val; rw [e0, hk0]; omega
  | ⟨1, _⟩ => show win0_0.index t (1 : Fin 2) * 1024 + 1 * (x 1).val = (k 1).val; rw [e1, hk1]; omega

/-- The feature block at point `t` is rows 8·(t / 4) … and time steps 128·(t % 4) … of the features. -/
theorem feats_block (c : Dev nD) (t : Fin cfg0.N) (x : S8x128x2048.Idx) (k : S64x512x2048.Idx)
    (hk0 : (k 0).val = 8 * (t.val / 4) + (x 0).val) (hk1 : (k 1).val = 128 * (t.val % 4) + (x 1).val)
    (hk2 : (k 2).val = (x 2).val) :
    (iblk0 V c 1 t : Vec Ideal S8x128x2048 .f32) x = (V c main_arg1 : S64x512x2048.Idx → EReal) k := by
  obtain ⟨e0, e1, e2⟩ := idx_feats t
  unfold iblk0
  rw [View.read_apply]
  show V c main_arg1 _ = V c main_arg1 _
  congr 1
  funext a
  apply Fin.ext
  match a with
  | ⟨0, _⟩ => show win0_1.index t (0 : Fin 3) * 8 + 1 * (x 0).val = (k 0).val; rw [e0, hk0]; omega
  | ⟨1, _⟩ => show win0_1.index t (1 : Fin 3) * 128 + 1 * (x 1).val = (k 1).val; rw [e1, hk1]; omega
  | ⟨2, _⟩ => show win0_1.index t (2 : Fin 3) * 2048 + 1 * (x 2).val = (k 2).val; rw [e2, hk2]; omega

/-- The block of `W` at every point is `W`. -/
theorem wmat_block (c : Dev nD) (t : Fin cfg0.N) (x : S512x1024.Idx) :
    (iblk0 V c 2 t : Vec Ideal S512x1024 .f32) x = (V c main_arg2 : S512x1024.Idx → EReal) x := by
  obtain ⟨e0, e1, -⟩ := idx_params t
  unfold iblk0
  rw [View.read_apply]
  show V c main_arg2 _ = V c main_arg2 _
  congr 1
  funext a
  apply Fin.ext
  match a with
  | ⟨0, _⟩ => show win0_2.index t (0 : Fin 2) * 512 + 1 * (x 0).val = (x 0).val; rw [e0]; omega
  | ⟨1, _⟩ => show win0_2.index t (1 : Fin 2) * 1024 + 1 * (x 1).val = (x 1).val; rw [e1]; omega

/-- The block of `U` at every point is `U`. -/
theorem umat_block (c : Dev nD) (t : Fin cfg0.N) (x : S512x2048.Idx) :
    (iblk0 V c 3 t : Vec Ideal S512x2048 .f32) x = (V c main_arg3 : S512x2048.Idx → EReal) x := by
  obtain ⟨-, -, e0, e1, -⟩ := idx_params t
  unfold iblk0
  rw [View.read_apply]
  show V c main_arg3 _ = V c main_arg3 _
  congr 1
  funext a
  apply Fin.ext
  match a with
  | ⟨0, _⟩ => show win0_3.index t (0 : Fin 2) * 512 + 1 * (x 0).val = (x 0).val; rw [e0]; omega
  | ⟨1, _⟩ => show win0_3.index t (1 : Fin 2) * 2048 + 1 * (x 1).val = (x 1).val; rw [e1]; omega

/-- The block of the bias at every point is the bias. -/
theorem bias_block (c : Dev nD) (t : Fin cfg0.N) (x : S512.Idx) :
    (iblk0 V c 4 t : Vec Ideal S512 .f32) x = (V c main_arg4 : S512.Idx → EReal) x := by
  obtain ⟨-, -, -, -, e0, -⟩ := idx_params t
  unfold iblk0
  rw [View.read_apply]
  show V c main_arg4 _ = V c main_arg4 _
  congr 1
  funext a
  apply Fin.ext
  match a with
  | ⟨0, _⟩ => show win0_4.index t (0 : Fin 1) * 512 + 1 * (x 0).val = (x 0).val; rw [e0]; omega

/-- The block of the row vector `w` at every point is `w`. -/
theorem wrow_block (c : Dev nD) (t : Fin cfg0.N) (x : S1x512.Idx) :
    (iblk0 V c 5 t : Vec Ideal S1x512 .f32) x = (V c main_arg5 : S1x512.Idx → EReal) x := by
  obtain ⟨-, -, -, -, -, e0, e1⟩ := idx_params t
  unfold iblk0
  rw [View.read_apply]
  show V c main_arg5 _ = V c main_arg5 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 512 + 1 * (x 1).val = (x 1).val; rw [e1]; omega

/-! ## What each point writes back -/

/-- WHAT POINT `t` WRITES BACK is block `t` of the energies of the argument arrays as the region finds them. -/
theorem flushed_eq (hblk : ∀ (x0 : FVec Ideal S8x1024 .f32) (x2 : FVec Ideal S512x1024 .f32) (x1 : FVec Ideal S8x128x2048 .f32)
      (x3 : FVec Ideal S512x2048 .f32) (x4 : FVec Ideal S512 .f32) (x5 : FVec Ideal S1x512 .f32) (p : Fin 8) (q : Fin 128),
      k0_pay1 (F := Ideal) x0 x2 x1 x3 x4 x5 (ix2 p q)
        = ∑ k : Fin 512, Ideal.tanh ((∑ h : Fin 1024, x0 (ix2 p h) * x2 (ix2 k h)) + (∑ f : Fin 2048, x1 (ix3 p q f) * x3 (ix2 k f)) + x4 (ix1 k))
            * x5 (ix2 (0 : Fin 1) k))
    (c : Dev nD) (t : Fin cfg0.N) :
    (dat0 V c).flushed 6 t = ((cfg0.win 6).blk t).view.read (Elt Ideal) (energyArr (V c main_arg0) (V c main_arg1) (V c main_arg2) (V c main_arg3) (V c main_arg4) (V c main_arg5)) := by
  show (cfg0.win 6).cut (grid0.coords t) ((dat0 V c).after 6 t) = _
  rw [after0_6]
  unfold out0_6
  rw [View.canon_unit_zero hz2]
  simp only [View.ld_unit_zero (S := S8x1024) hz2, View.ld_unit_zero (S := S512x1024) hz2,
    View.ld_unit_zero (S := S8x128x2048) hz3, View.ld_unit_zero (S := S512x2048) hz2,
    View.ld_unit_zero (S := S512) hz1, View.ld_unit_zero (S := S1x512) hz2]
  obtain ⟨e0, e1⟩ := idx_tile t
  funext j
  have hj0 : (j 0).val < 8 := (j 0).isLt
  have hj1 : (j 1).val < 128 := (j 1).isLt
  have ht : t.val < 32 := t.isLt
  show k0_pay1 (F := Ideal) (iblk0 V c 0 t) (iblk0 V c 2 t) (iblk0 V c 1 t) (iblk0 V c 3 t) (iblk0 V c 4 t) (iblk0 V c 5 t) j
    = energy (V c main_arg0) (V c main_arg1) (V c main_arg2) (V c main_arg3) (V c main_arg4) (V c main_arg5)
        ((((cfg0.win 6).blk t).view.emb j) 0) ((((cfg0.win 6).blk t).view.emb j) 1)
  have hr : ((((cfg0.win 6).blk t).view.emb j) 0).val = 8 * (t.val / 4) + (j 0).val := by
    show win0_6.index t (0 : Fin 2) * 8 + 1 * (j 0).val = _; rw [e0]; omega
  have hs : ((((cfg0.win 6).blk t).view.emb j) 1).val = 128 * (t.val % 4) + (j 1).val := by
    show win0_6.index t (1 : Fin 2) * 128 + 1 * (j 1).val = _; rw [e1]; omega
  exact tile_energy hblk (V c main_arg0) (V c main_arg1) (V c main_arg2) (V c main_arg3) (V c main_arg4) (V c main_arg5)
    (iblk0 V c 0 t) (iblk0 V c 1 t) (iblk0 V c 2 t) (iblk0 V c 3 t) (iblk0 V c 4 t) (iblk0 V c 5 t)
    j ⟨(j 0).val, hj0⟩ ⟨(j 1).val, hj1⟩ rfl rfl _ _
    (fun h => hidden_block V c t _ _ hr rfl)
    (fun f => feats_block V c t _ _ hr hs rfl)
    (wmat_block V c t) (umat_block V c t) (bias_block V c t) (wrow_block V c t)

/-! ## The blocks tile the result -/

/-- An index of the result is in point `t`'s block iff each coordinate is in the block's range on its axis. -/
theorem mem_tile (t : Fin cfg0.N) (i : S64x512.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v0).slice (win0_6.rect t)).set ↔ _
  rw [View.set_slice_whole, Rect.mem_set_unit]
  exact Iff.rfl

/-- Index (r, s) of the result lies in the block of the point with block indices (r / 8, s / 128), which is written back. -/
theorem tiles_cover (i : S64x512.Idx) :
    ∃ t : Fin cfg0.N, (cfg0.win 6).flush t = true ∧ i ∈ ((cfg0.win 6).blk t).view.set := by
  have hi0 : (i 0).val < 64 := (i 0).isLt
  have hi1 : (i 1).val < 512 := (i 1).isLt
  obtain ⟨t, ht⟩ := idx_tile_onto ⟨(i 0).val / 8, by omega⟩ ⟨(i 1).val / 128, by omega⟩
  have q0 : win0_6.index t (0 : Fin 2) = (i 0).val / 8 := congrFun ht 0
  have q1 : win0_6.index t (1 : Fin 2) = (i 1).val / 128 := congrFun ht 1
  refine ⟨t, flush0_6 t, ?_⟩
  rw [mem_tile]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-! ## The result array -/

/-- The result of the first call ends holding the energies, under the tile law. -/
theorem energies_of_tile (hblk : ∀ (x0 : FVec Ideal S8x1024 .f32) (x2 : FVec Ideal S512x1024 .f32) (x1 : FVec Ideal S8x128x2048 .f32)
      (x3 : FVec Ideal S512x2048 .f32) (x4 : FVec Ideal S512 .f32) (x5 : FVec Ideal S1x512 .f32) (p : Fin 8) (q : Fin 128),
      k0_pay1 (F := Ideal) x0 x2 x1 x3 x4 x5 (ix2 p q)
        = ∑ k : Fin 512, Ideal.tanh ((∑ h : Fin 1024, x0 (ix2 p h) * x2 (ix2 k h)) + (∑ f : Fin 2048, x1 (ix3 p q f) * x3 (ix2 k f)) + x4 (ix1 k))
            * x5 (ix2 (0 : Fin 1) k))
    (c : Dev nD) : (dat0 V c).arrAt 6 cfg0.N = energyArr (V c main_arg0) (V c main_arg1) (V c main_arg2) (V c main_arg3) (V c main_arg4) (V c main_arg5) :=
  (dat0 V c).arrAt_eq_of_cover 6 (energyArr (V c main_arg0) (V c main_arg1) (V c main_arg2) (V c main_arg3) (V c main_arg4) (V c main_arg5)) (fun t _ => flushed_eq V hblk c t) tiles_cover

/-- THE RESULT of the first call: the [64, 512] array ends holding, at (r, s), the energy of time step `s` in batch
    row `r`, of the argument arrays as the region finds them. -/
theorem energies_eq (c : Dev nD) :
    (dat0 V c).arrAt 6 cfg0.N = fun j => energy (V c main_arg0) (V c main_arg1) (V c main_arg2) (V c main_arg3) (V c main_arg4) (V c main_arg5) (j 0) (j 1) :=
  energies_of_tile V Math.energy_block c

end Cert.KernelIdeal.Val0

end
-- ==== Proof.AttnArray.lean ====
/-
  The second call's result array, as one function of the arrays the call reads.

  The call walks a grid of 8 × 4 points; point t works on batch rows 8·(t/4) … 8·(t/4)+7 and on time steps
  128·(t%4) … 128·(t%4)+127. Its accumulator starts, at the first time block of a row block, from zero plus that
  block's weighted sum of feature vectors, and each later time block adds its own; after the fourth, the accumulator
  at (p, q) is the sum over all 512 time steps of weights(8·(t/4)+p, 0, s) · feats(8·(t/4)+p, s, q), and that is what
  the point writes back to rows 8·(t/4) … of the result. The eight write-backs tile the result's 64 rows.
  Only commutativity-free facts of + are used: 0 + x = x and the splitting of a finite sum at a position.
-/
import proofs.«103845_j22514218566280_2_alg».proof.Proof.KernelMath
import proofs.«103845_j22514218566280_2_alg».proof.Proof.Region1
import Idealize.ShloMosaic.Lib.Pipeline.Value
import Idealize.ShloMosaic.Lib.ValueIdx

noncomputable section

open scoped BigOperators

namespace Cert.KernelIdeal.Val1

open Cert.KernelIdeal Cert.KernelIdeal.Gen Idealize.ShloMosaic Idealize.ShloMosaic.TcCoe Idealize.ShloMosaic.ValueIdx
open Idealize.ShloMosaic.Pipeline (Dat)

/-- The attended features: at row a and feature f, the sum over time of weights(a, 0, t) · feats(a, t, f). -/
def attnArr (wt : S64x1x512.Idx → EReal) (fe : S64x512x2048.Idx → EReal) : S64x2048.Idx → EReal :=
  fun j => ∑ t : Fin 512, wt (ix3 (j 0) (0 : Fin 1) t) * fe (ix3 (j 0) t (j 1))

/-- The same at an index whose coordinates are known. -/
theorem attnArr_apply (w : S64x1x512.Idx → EReal) (fe : S64x512x2048.Idx → EReal) (j : S64x2048.Idx) (r : Fin 64) (q : Fin 2048)
    (h0 : (j 0).val = r.val) (h1 : (j 1).val = q.val) :
    attnArr w fe j = ∑ n : Fin 512, w (ix3 r (0 : Fin 1) n) * fe (ix3 r n q) := by
  obtain rfl : j = ix2 r q := by
    funext a; apply Fin.ext
    match a with
    | ⟨0, _⟩ => exact h0
    | ⟨1, _⟩ => exact h1
  rfl

/-- The same at an index given by its coordinates. -/
theorem attnArr_ix (wt : S64x1x512.Idx → EReal) (fe : S64x512x2048.Idx → EReal) (a : Fin 64) (f : Fin 2048) :
    attnArr wt fe (ix2 a f) = ∑ t : Fin 512, wt (ix3 a (0 : Fin 1) t) * fe (ix3 a t f) := rfl

/-- Contents whose entries are extended reals, read as a function to the extended reals. -/
abbrev rd {S : Shape} (x : S.Idx → EReal) : S.Idx → EReal := x

variable (V : (c : Dev nD) → (b : Ref sig .tc) → Buf (Elt Ideal) ((c : Thread nD τ).loc b))

/-- The three windows' block indices at point t: the row block is t/4, the time block t%4. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 2) = t.val / 4 ∧ win1_2.index t (1 : Fin 2) = 0 :=
  (by decide +kernel : ∀ t : Fin grid1.N, _)

/-- The features block at point t: entry (p, s, q) is the features array at row 8·(t/4)+p, time 128·(t%4)+s, feature q. -/
theorem feats_blk (c : Dev nD) (t : Fin cfg1.N) (p : Fin 8) (s : Fin 128) (q : Fin 2048) (k : S64x512x2048.Idx)
    (h0 : (k 0).val = 8 * (t.val / 4) + p.val) (h1 : (k 1).val = 128 * (t.val % 4) + s.val) (h2 : (k 2).val = q.val) :
    rd (S := S8x128x2048) (Hand1.iblk1 V c 0 t) (ix3 p s q) = rd (S := S64x512x2048) (V c main_arg1) k := by
  obtain ⟨e0, e1, e2, -⟩ := idx_facts t
  unfold Hand1.iblk1
  show V c main_arg1 (((cfg1.win 0).blk t).view.emb (ix3 p s q)) = V c main_arg1 k
  refine congrArg _ (funext fun a => Fin.ext ?_)
  match a with
  | ⟨0, _⟩ => show win1_0.index t (0 : Fin 3) * 8 + 1 * p.val = (k 0).val; rw [e0, h0]; omega
  | ⟨1, _⟩ => show win1_0.index t (1 : Fin 3) * 128 + 1 * s.val = (k 1).val; rw [e1, h1]; omega
  | ⟨2, _⟩ => show win1_0.index t (2 : Fin 3) * 2048 + 1 * q.val = (k 2).val; rw [e2, h2]; omega

/-- The weights block at point t: entry (p, z, s) is the weights array at row 8·(t/4)+p, 0, time 128·(t%4)+s. -/
theorem weights_blk (c : Dev nD) (t : Fin cfg1.N) (p : Fin 8) (z : Fin 1) (s : Fin 128) (k : S64x1x512.Idx)
    (h0 : (k 0).val = 8 * (t.val / 4) + p.val) (h1 : (k 1).val = 0) (h2 : (k 2).val = 128 * (t.val % 4) + s.val) :
    rd (S := S8x1x128) (Hand1.iblk1 V c 1 t) (ix3 p z s) = rd (S := S64x1x512) (V c main_v13) k := by
  obtain ⟨-, -, -, e3, e4, e5, -⟩ := idx_facts t
  unfold Hand1.iblk1
  show V c main_v13 (((cfg1.win 1).blk t).view.emb (ix3 p z s)) = V c main_v13 k
  refine congrArg _ (funext fun a => Fin.ext ?_)
  match a with
  | ⟨0, _⟩ => show win1_1.index t (0 : Fin 3) * 8 + 1 * p.val = (k 0).val; rw [e3, h0]; omega
  | ⟨1, _⟩ => show win1_1.index t (1 : Fin 3) * 1 + 1 * z.val = (k 1).val; rw [e4, h1]; have := z.isLt; omega
  | ⟨2, _⟩ => show win1_1.index t (2 : Fin 3) * 128 + 1 * s.val = (k 2).val; rw [e5, h2]; omega

/-- One product of the attended sum, at a row r and a time step n given as naturals (zero off the arrays). -/
def term (c : Dev nD) (r n : ℕ) (q : Fin 2048) : EReal :=
  if h : r < 64 ∧ n < 512 then
    rd (S := S64x1x512) (V c main_v13) (ix3 (⟨r, h.1⟩ : Fin 64) (0 : Fin 1) (⟨n, h.2⟩ : Fin 512))
      * rd (S := S64x512x2048) (V c main_arg1) (ix3 (⟨r, h.1⟩ : Fin 64) (⟨n, h.2⟩ : Fin 512) q)
  else 0

/-- A product of the two blocks at point t is the product at row 8·(t/4)+p and time 128·(t%4)+s. -/
theorem pair_term (c : Dev nD) (t : Fin cfg1.N) (p : Fin 8) (s : Fin 128) (q : Fin 2048) :
    rd (S := S8x1x128) (Hand1.iblk1 V c 1 t) (ix3 p (0 : Fin 1) s) * rd (S := S8x128x2048) (Hand1.iblk1 V c 0 t) (ix3 p s q)
      = term V c (8 * (t.val / 4) + p.val) (128 * (t.val % 4) + s.val) q := by
  have hN : cfg1.N = 32 := N_1
  have ht := t.isLt
  have hp := p.isLt
  have hs := s.isLt
  have hr : 8 * (t.val / 4) + p.val < 64 ∧ 128 * (t.val % 4) + s.val < 512 := by omega
  unfold term
  rw [dif_pos hr]
  exact congrArg₂ (· * ·) (weights_blk V c t p (0 : Fin 1) s _ rfl rfl rfl) (feats_blk V c t p s q _ rfl rfl rfl)

/-- The weighted sum of one block's 128 time steps. -/
theorem block_sum (c : Dev nD) (t : Fin cfg1.N) (p : Fin 8) (q : Fin 2048) :
    ∑ s : Fin 128, rd (S := S8x1x128) (Hand1.iblk1 V c 1 t) (ix3 p (0 : Fin 1) s) * rd (S := S8x128x2048) (Hand1.iblk1 V c 0 t) (ix3 p s q)
      = ∑ s ∈ Finset.range 128, term V c (8 * (t.val / 4) + p.val) (128 * (t.val % 4) + s) q := by
  rw [Finset.sum_range]
  exact Finset.sum_congr rfl fun s _ => pair_term V c t p s q

/-- At the first time block of a row block the accumulator is zero plus the block's sum. -/
theorem acc_first (c : Dev nD) (t : Fin cfg1.N) (h : t.val % 4 = 0) (p : Fin 8) (q : Fin 2048) :
    Hand1.acc1 V c t.val t.isLt (ix2 p q)
      = ∑ x ∈ Finset.range (128 * (t.val % 4 + 1)), term V c (8 * (t.val / 4) + p.val) x q := by
  refine (congrFun (Hand1.acc1_first V c t h) (ix2 p q)).trans ?_
  refine (Math.acc_block _ _ _ p q).trans ?_
  refine (congrArg₂ (· + ·) (Math.zero_block p q) (block_sum V c t p q)).trans ?_
  rw [zero_add, h]
  exact Finset.sum_congr rfl fun s _ => by rw [Nat.mul_zero, Nat.zero_add]

/-- At a later time block the accumulator is what it was plus the block's sum. -/
theorem acc_next (c : Dev nD) (t : Fin cfg1.N) (h : ¬ t.val % 4 = 0) (p : Fin 8) (q : Fin 2048)
    (ih : Hand1.acc1 V c (t.val - 1) (Nat.lt_of_le_of_lt (Nat.sub_le _ _) t.isLt) (ix2 p q)
      = ∑ x ∈ Finset.range (128 * ((t.val - 1) % 4 + 1)), term V c (8 * ((t.val - 1) / 4) + p.val) x q) :
    Hand1.acc1 V c t.val t.isLt (ix2 p q)
      = ∑ x ∈ Finset.range (128 * (t.val % 4 + 1)), term V c (8 * (t.val / 4) + p.val) x q := by
  refine (congrFun (Hand1.acc1_next V c t h) (ix2 p q)).trans ?_
  refine (Math.acc_block _ _ _ p q).trans ?_
  have e1 : (t.val - 1) / 4 = t.val / 4 := by omega
  have e2 : (t.val - 1) % 4 + 1 = t.val % 4 := by omega
  have e3 : 128 * (t.val % 4 + 1) = 128 * (t.val % 4) + 128 := by omega
  refine (congrArg₂ (· + ·) ih (block_sum V c t p q)).trans ?_
  rw [e1, e2, e3, Finset.sum_range_add]

/-- The accumulator after point n: the sum over the time steps of the row block's time blocks so far. -/
theorem acc_eq (c : Dev nD) : ∀ (n : ℕ) (hn : n < cfg1.N) (p : Fin 8) (q : Fin 2048),
    Hand1.acc1 V c n hn (ix2 p q) = ∑ x ∈ Finset.range (128 * (n % 4 + 1)), term V c (8 * (n / 4) + p.val) x q
  | 0, hn, p, q => acc_first V c ⟨0, hn⟩ rfl p q
  | n + 1, hn, p, q => by
    by_cases h : (n + 1) % 4 = 0
    · exact acc_first V c ⟨n + 1, hn⟩ h p q
    · exact acc_next V c ⟨n + 1, hn⟩ h p q (acc_eq c n (Nat.lt_of_succ_lt hn) p q)

/-- After the fourth time block the accumulator holds the whole sum over time. -/
theorem acc_last (c : Dev nD) (t : Fin cfg1.N) (h : t.val % 4 = 3) (p : Fin 8) (q : Fin 2048) (r : Fin 64)
    (hr : r.val = 8 * (t.val / 4) + p.val) :
    Hand1.acc1 V c t.val t.isLt (ix2 p q)
      = ∑ n : Fin 512, rd (S := S64x1x512) (V c main_v13) (ix3 r (0 : Fin 1) n) * rd (S := S64x512x2048) (V c main_arg1) (ix3 r n q) := by
  rw [acc_eq V c t.val t.isLt p q, h, ← hr]
  show ∑ x ∈ Finset.range 512, term V c r.val x q = _
  rw [Finset.sum_range]
  refine Finset.sum_congr rfl fun n _ => ?_
  unfold term
  rw [dif_pos ⟨r.isLt, n.isLt⟩]

/-- What a writing point writes back is its block of the attended features. -/
theorem flushed_eq (c : Dev nD) (t : Fin cfg1.N) (hf : (cfg1.win 2).flush t = true) :
    (Hand1.dat1 (F := Ideal) V c).flushed 2 t
      = ((cfg1.win 2).blk t).view.read (Elt Ideal) (attnArr (V c main_v13) (V c main_arg1)) := by
  have h3 : t.val % 4 = 3 := (flush1_2 t).mp hf
  have hN : cfg1.N = 32 := N_1
  have ht := t.isLt
  obtain ⟨-, -, -, -, -, -, e6, e7⟩ := idx_facts t
  show (cfg1.win 2).cut (grid1.coords t) ((Hand1.dat1 (F := Ideal) V c).after 2 t) = _
  rw [Hand1.after1_2]
  funext y
  obtain ⟨p, q, rfl⟩ : ∃ (p : Fin 8) (q : Fin 2048), (y : S8x2048.Idx) = ix2 p q := ⟨y 0, y 1, eq_ix2 (y : S8x2048.Idx)⟩
  have hp := p.isLt
  show Hand1.acc1 V c t.val t.isLt (ix2 p q) = attnArr (V c main_v13) (V c main_arg1) (((cfg1.win 2).blk t).view.emb (ix2 p q))
  rw [acc_last V c t h3 p q ⟨8 * (t.val / 4) + p.val, by omega⟩ rfl]
  refine (attnArr_apply _ _ _ ⟨8 * (t.val / 4) + p.val, by omega⟩ q ?_ ?_).symm
  · show win1_2.index t (0 : Fin 2) * 8 + 1 * p.val = 8 * (t.val / 4) + p.val
    rw [e6]; omega
  · show win1_2.index t (1 : Fin 2) * 2048 + 1 * q.val = q.val
    rw [e7]; omega

/-- An index of the result is in point t's block iff each coordinate is in the block's range on its axis. -/
theorem mem_blk (t : Fin cfg1.N) (i : S64x2048.Idx) :
    i ∈ ((cfg1.win 2).blk t).view.set ↔ ∀ a : Fin 2, win1_2.index t a * S8x2048.size a ≤ (i a).val ∧ (i a).val < win1_2.index t a * S8x2048.size a + S8x2048.size a := by
  show i ∈ ((View.whole main_v14).slice (win1_2.rect t)).set ↔ _
  rw [View.set_slice_whole, Rect.mem_set_unit]
  exact Iff.rfl

/-- Row r of the result is written back by the last time block of row block r/8. -/
theorem cover (i : S64x2048.Idx) : ∃ t : Fin cfg1.N, (cfg1.win 2).flush t = true ∧ i ∈ ((cfg1.win 2).blk t).view.set := by
  have hN : cfg1.N = 32 := N_1
  have hi0 : (i 0).val < 64 := (i 0).isLt
  have hi1 : (i 1).val < 2048 := (i 1).isLt
  have hlt : (i 0).val / 8 * 4 + 3 < cfg1.N := by omega
  obtain ⟨-, -, -, -, -, -, e6, e7⟩ := idx_facts ⟨(i 0).val / 8 * 4 + 3, hlt⟩
  refine ⟨⟨(i 0).val / 8 * 4 + 3, hlt⟩, (flush1_2 _).mpr (by show ((i 0).val / 8 * 4 + 3) % 4 = 3; omega), ?_⟩
  rw [mem_blk]
  intro a
  match a with
  | ⟨0, _⟩ =>
    show win1_2.index ⟨(i 0).val / 8 * 4 + 3, hlt⟩ (0 : Fin 2) * 8 ≤ (i 0).val ∧ (i 0).val < win1_2.index ⟨(i 0).val / 8 * 4 + 3, hlt⟩ (0 : Fin 2) * 8 + 8
    rw [e6]
    show ((i 0).val / 8 * 4 + 3) / 4 * 8 ≤ (i 0).val ∧ (i 0).val < ((i 0).val / 8 * 4 + 3) / 4 * 8 + 8
    omega
  | ⟨1, _⟩ =>
    show win1_2.index ⟨(i 0).val / 8 * 4 + 3, hlt⟩ (1 : Fin 2) * 2048 ≤ (i 1).val ∧ (i 1).val < win1_2.index ⟨(i 0).val / 8 * 4 + 3, hlt⟩ (1 : Fin 2) * 2048 + 2048
    rw [e7]
    omega

/-- The result array after the second call: the attended features of the weights and the features. -/
theorem attn_eq (c : Dev nD) :
    (Hand1.dat1 (F := Ideal) V c).arrAt 2 cfg1.N = attnArr (V c main_v13) (V c main_arg1) :=
  (Hand1.dat1 (F := Ideal) V c).arrAt_eq_of_cover 2 (attnArr (V c main_v13) (V c main_arg1)) (flushed_eq V c) (fun i => cover i)

end Cert.KernelIdeal.Val1

end
-- ==== Proof.KernelValue.lean ====
/-
  What the idealized kernel's program leaves in its two result buffers, as the specification's functions of the argument
  arrays. The first call leaves the energies array; the host operations take every row's softmax over time and re-lay it
  twice; the second call leaves, at (a, f), the sum over time of weight(a, t) · feats(a, t, f), accumulated block by block —
  the specification's sum with the factors in the other order.
-/
import proofs.«103845_j22514218566280_2_alg».proof.Proof.Frames
import proofs.«103845_j22514218566280_2_alg».proof.Proof.HostStretch
import proofs.«103845_j22514218566280_2_alg».proof.Proof.KernelMath
import proofs.«103845_j22514218566280_2_alg».proof.Proof.Spec
import proofs.«103845_j22514218566280_2_alg».proof.Proof.EnergyArray
import proofs.«103845_j22514218566280_2_alg».proof.Proof.AttnArray

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.HandRun

variable (m : (ℓ : Loc nD τ sig) → Buf (Elt Ideal) ℓ)

/-- The energies array, as the specification's function of the launch memory's argument arrays. -/
def energyArr (c : Dev nD) : S64x512.Idx → EReal := fun j =>
  Cert.AttnSpec.energy (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (j 0) (j 1)

/-- After the first call the energies buffer holds the energies array. -/
theorem V1_v0 (c : Dev nD) : (Gen.V1 m (outs1 m) c (Proc.devRef .tc main_v0) : S64x512.Idx → EReal) = energyArr m c := by
  show Function.update (Gen.V0 m c) (Proc.devRef .tc main_v0) (outs1 m 1 main_v0 c) (Proc.devRef .tc main_v0) = _
  rw [Function.update_self]
  exact (W1_arr m c 6).trans (Val0.energies_eq (VA m) c)

/-- The softmax of the energies' rows is the specification's weights. -/
theorem softmax_energy (c : Dev nD) (a : Fin 64) (t : Fin 512) :
    HostVal.softmaxRows (F := Ideal) (energyArr m c) (ix2 a t)
      = Cert.AttnSpec.weights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) a t := by
  rw [Math.softmaxRows_apply]
  rfl

/-- The second result: the softmax of every row of energies, with a trailing unit axis. -/
theorem kernel_weights (c : Dev nD) :
    (Gen.V3 m (outs m) c (Proc.devRef .tc main_v12) : S64x512x1.Idx → EReal)
      = Cert.AttnSpec.outWeights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (Gen.V3_of m (outs m) c main_v12 (by decide)).trans ?_
  refine (congrFun (V2_outs m c) _).trans ?_
  refine (HostVal.V2_v12 m (outs1 m) c).trans ?_
  rw [V1_v0]
  funext j
  obtain ⟨a, t, z, rfl⟩ : ∃ (a : Fin 64) (t : Fin 512) (z : Fin 1), j = ix3 a t z := ⟨j 0, j 1, j 2, eq_ix3 j⟩
  rw [Math.weightsOut_apply, softmax_energy]
  rfl

/-- The first result: the attended features. -/
theorem kernel_attn (c : Dev nD) :
    (Gen.V3 m (outs m) c (Proc.devRef .tc main_v14) : S64x2048.Idx → EReal)
      = Cert.AttnSpec.outAttn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  show Function.update (Gen.V2 m (outs m) c) (Proc.devRef .tc main_v14) (outs m 3 main_v14 c) (Proc.devRef .tc main_v14) = _
  rw [Function.update_self]
  refine (outs_3 m c).trans ?_
  refine (Val1.attn_eq (VB m) c).trans ?_
  funext j
  obtain ⟨a, f, rfl⟩ : ∃ (a : Fin 64) (f : Fin 2048), j = ix2 a f := ⟨j 0, j 1, eq_ix2 j⟩
  have h1 : (VB m c main_arg1 : S64x512x2048.Idx → EReal) = m ((c.tc : Thread nD τ).loc main_arg1) :=
    (Gen.V2_of m (outs1 m) c main_arg1 (by decide)).trans ((Gen.V1_of m (outs1 m) c main_arg1 (by decide)).trans rfl)
  have h13 : ∀ t : Fin 512, (VB m c main_v13 : S64x1x512.Idx → EReal) (ix3 a (0 : Fin 1) t)
      = Cert.AttnSpec.weights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) a t := fun t => by
    refine (congrFun (HostVal.V2_v13 m (outs1 m) c) _).trans ?_
    rw [V1_v0, Math.weightsMid_apply, softmax_energy]
  calc Val1.attnArr (VB m c main_v13) (VB m c main_arg1) (ix2 a f)
      = ∑ t : Fin 512, Cert.AttnSpec.weights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) a t
            * (m ((c.tc : Thread nD τ).loc main_arg1) : S64x512x2048.Idx → EReal) (ix3 a t f) :=
        Finset.sum_congr rfl fun t _ => congrArg₂ (· * ·) (h13 t) (congrFun h1 _)
    _ = _ := Finset.sum_congr rfl fun t _ => mul_comm _ _

end Cert.KernelIdeal.HandVal

end
-- ==== Proof.RefValue.lean ====
/-
  The reference program computes the attention layer of the specification.

  The reference is a chain of whole-array operations: two projections (sums over the hidden and the feature axis), their
  broadcast sum with the bias, a hyperbolic tangent, a contraction against the row vector `w` (the energies), a softmax over
  the time axis spelt as a maximum from −∞, a second maximum against −∞, a difference, an exponential, a sum and a quotient,
  and at last the sum over time of the features weighted by the softmax.  Read at one index, each operation is the
  corresponding line of the specification at that index's coordinates: a contraction is the sum of the products over the
  contracted coordinate, a broadcast reads its operand at the coordinates it keeps, a sum over an axis is the sum over that
  coordinate (its zero start disappears), and the maximum over the time axis is the fold of `max` from −∞ over that coordinate.
  No property of the entries is used: the two sides are the same sums, term by term.
-/
import proofs.«103845_j22514218566280_2_alg».proof.Proof.Gen.ReferenceIdeal.Read
import proofs.«103845_j22514218566280_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Cert.AttnSpec

variable (x0 : (⟨S64x1024, .f32⟩ : BufTy).Contents (Elt Ideal))
  (x1 : (⟨S64x512x2048, .f32⟩ : BufTy).Contents (Elt Ideal))
  (x2 : (⟨S512x1024, .f32⟩ : BufTy).Contents (Elt Ideal))
  (x3 : (⟨S512x2048, .f32⟩ : BufTy).Contents (Elt Ideal))
  (x4 : (⟨S512, .f32⟩ : BufTy).Contents (Elt Ideal))
  (x5 : (⟨S1x512, .f32⟩ : BufTy).Contents (Elt Ideal))

/-! ## The energies -/

/-- The first contraction at `(a, k)`: row `a` of the hidden state against row `k` of `W` (the transpose only swaps the
    two coordinates at which `W` is read). -/
theorem ref_wh (a : Fin 64) (k : Fin 512) :
    val_main_v1 (F := Ideal) x0 x2 (ix2 a k) = wh x0 x2 a k := by
  rw [val_main_v1_apply]
  unfold wh
  refine Finset.sum_congr rfl fun h _ => ?_
  rw [val_main_v0_apply]
  have e1 : lidx_main_v1 (ix2 a k) h = ix2 a h := funext fun d => Fin.ext (by match d with | ⟨0, _⟩ => rfl | ⟨1, _⟩ => rfl)
  have e2 : idx_main_v0 (ridx_main_v1 (ix2 a k) h) = ix2 k h := funext fun d => Fin.ext (by match d with | ⟨0, _⟩ => rfl | ⟨1, _⟩ => rfl)
  rw [e1, e2]

/-- The second contraction at `(a, t, k)`: the feature vector at `(a, t)` against row `k` of `U`. -/
theorem ref_uv (a : Fin 64) (t : Fin 512) (k : Fin 512) :
    val_main_v2 (F := Ideal) x1 x3 (ix3 a t k) = uv x1 x3 a t k := by
  rw [val_main_v2_apply]
  unfold uv
  refine Finset.sum_congr rfl fun f _ => ?_
  have e1 : lidx_main_v2 (ix3 a t k) f = ix3 a t f := funext fun d => Fin.ext (by match d with | ⟨0, _⟩ => rfl | ⟨1, _⟩ => rfl | ⟨2, _⟩ => rfl)
  have e2 : ridx_main_v2 (ix3 a t k) f = ix2 k f := funext fun d => Fin.ext (by match d with | ⟨0, _⟩ => rfl | ⟨1, _⟩ => rfl)
  rw [e1, e2]

/-- The argument of the hyperbolic tangent at `(a, t, k)`: the projected hidden state does not depend on `t`, the bias
    depends on `k` alone. -/
theorem ref_pre (a : Fin 64) (t : Fin 512) (k : Fin 512) :
    val_main_v8 (F := Ideal) x0 x1 x2 x3 x4 (ix3 a t k) = wh x0 x2 a k + uv x1 x3 a t k + x4 (ix1 k) := by
  rw [val_main_v8_apply, val_main_v5_apply, val_main_v4_apply, val_main_v3_apply, val_main_v7_apply, val_main_v6_apply]
  have e1 : idx_main_v3 (idx_main_v4 (ix3 a t k)) = ix2 a k := funext fun d => Fin.ext (by match d with | ⟨0, _⟩ => rfl | ⟨1, _⟩ => rfl)
  have e2 : idx_main_v6 (idx_main_v7 (ix3 a t k)) = ix1 k := funext fun d => Fin.ext (by match d with | ⟨0, _⟩ => rfl)
  rw [e1, e2, ref_wh, ref_uv]
  rfl

/-- The energy of time step `t` in batch row `a`: the contraction of the tangents against the one row of `w`. -/
theorem ref_energy (a : Fin 64) (t : Fin 512) (z : Fin 1) :
    val_main_v10 (F := Ideal) x0 x1 x2 x3 x4 x5 (ix3 a t z) = energy x0 x1 x2 x3 x4 x5 a t := by
  obtain rfl : z = 0 := Subsingleton.elim _ _
  rw [val_main_v10_apply]
  unfold energy
  refine Finset.sum_congr rfl fun k _ => ?_
  have e1 : lidx_main_v10 (ix3 a t (0 : Fin 1)) k = ix3 a t k := funext fun d => Fin.ext (by match d with | ⟨0, _⟩ => rfl | ⟨1, _⟩ => rfl | ⟨2, _⟩ => rfl)
  have e2 : ridx_main_v10 (ix3 a t (0 : Fin 1)) k = ix2 (0 : Fin 1) k := funext fun d => Fin.ext (by match d with | ⟨0, _⟩ => rfl | ⟨1, _⟩ => rfl)
  rw [e1, e2, val_main_v9_apply, ref_pre, Ideal.hostUnary_tanh_def]

/-! ## The softmax over time -/

/-- The reduced index `(a, z)` with the time coordinate `s` put back is `(a, s, z)`. -/
theorem lift_time (h : S64x512x1.Reduces [1] S64x1) (a : Fin 64) (z : Fin 1) (s : Fin (S64x512x1.size 1)) :
    h.lift (ix2 a z) s = ix3 a (⟨s.val, s.isLt⟩ : Fin 512) z := by
  funext c; apply Fin.ext
  fin_cases c <;> rfl

/-- The maximum over the time axis from −∞, at row `a`: the fold of `max` from −∞ over the row's entries. -/
theorem ref_fold (y : (⟨S64x512x1, .f32⟩ : BufTy).Contents (Elt Ideal)) (a : Fin 64) (z : Fin 1) :
    Host.reduce (FloatOps.maximumf (F := Ideal) (φ := .f32)) y (val_main_cst (F := Ideal)) reducesTo_S64x512x1_S64x1_d1 h_S_ (ix2 a z)
      = (Finset.univ : Finset (Fin 512)).fold max negInf (fun s => y (ix3 a s z)) := by
  have h : S64x512x1.Reduces [1] S64x1 := by decide
  rw [Host.reduce_eq_fold_single (FloatOps.maximumf (F := Ideal) (φ := .f32)) y _ reducesTo_S64x512x1_S64x1_d1 h h_S_]
  have hf : (y ∘ h.lift (ix2 a z)) = fun s : Fin 512 => y (ix3 a s z) :=
    funext fun s => congrArg y (lift_time h a z s)
  exact congrArg (fun f => Finset.fold max negInf f (Finset.univ : Finset (Fin 512))) hf

/-- A row's maximum, as the reference takes it. -/
theorem ref_rowMax (a : Fin 64) (z : Fin 1) :
    val_main_v13 (F := Ideal) x0 x1 x2 x3 x4 x5 (ix2 a z) = rowMax (energy x0 x1 x2 x3 x4 x5 a) := by
  rw [val_main_v13_apply, val_main_v12_apply, val_main_cst_0_apply]
  unfold val_main_v11
  generalize hy : val_main_v10 (F := Ideal) x0 x1 x2 x3 x4 x5 = y
  have hf : (fun s : Fin 512 => y (ix3 a s z)) = energy x0 x1 x2 x3 x4 x5 a :=
    funext fun s => by rw [← hy]; exact ref_energy x0 x1 x2 x3 x4 x5 a s z
  have hfold := (ref_fold y a z).trans
    (congrArg (fun f => Finset.fold max negInf f (Finset.univ : Finset (Fin 512))) hf)
  exact congrArg (max negInf) hfold

/-- The exponential of an energy's difference from its row's maximum. -/
theorem ref_rowExp (a : Fin 64) (t : Fin 512) (z : Fin 1) :
    val_main_v17 (F := Ideal) x0 x1 x2 x3 x4 x5 (ix3 a t z) = rowExp (energy x0 x1 x2 x3 x4 x5 a) t := by
  rw [val_main_v17_apply, val_main_v16_apply, val_main_v15_apply, val_main_v14_apply]
  have e1 : idx_main_v14 (idx_main_v15 (ix3 a t z)) = ix2 a (0 : Fin 1) := funext fun d => Fin.ext (by match d with | ⟨0, _⟩ => rfl | ⟨1, _⟩ => rfl)
  rw [e1, ref_rowMax, ref_energy, Ideal.hostUnary_exp_def, Ideal.subf_def]
  rfl

/-- The sum of a row's exponentials: the sum over the time axis starts from zero. -/
theorem ref_rowSum (a : Fin 64) (z : Fin 1) :
    val_main_v18 (F := Ideal) x0 x1 x2 x3 x4 x5 (ix2 a z) = rowSum (energy x0 x1 x2 x3 x4 x5 a) := by
  rw [val_main_v18_apply, val_main_cst_1_apply, Ideal.ofBits_def, Ideal.ofBits_zero_f32, zero_add]
  unfold rowSum
  refine Finset.sum_congr rfl fun k _ => ?_
  have e1 : idx_main_v18 (ix2 a z) k = ix3 a k z := funext fun d => Fin.ext (by match d with | ⟨0, _⟩ => rfl | ⟨1, _⟩ => rfl | ⟨2, _⟩ => rfl)
  rw [e1, ref_rowExp]

/-- The attention weight of time step `t` in batch row `a`. -/
theorem ref_weights_ix (a : Fin 64) (t : Fin 512) (z : Fin 1) :
    val_main_v21 (F := Ideal) x0 x1 x2 x3 x4 x5 (ix3 a t z) = weights x0 x1 x2 x3 x4 x5 a t := by
  rw [val_main_v21_apply, val_main_v20_apply, val_main_v19_apply]
  have e1 : idx_main_v19 (idx_main_v20 (ix3 a t z)) = ix2 a (0 : Fin 1) := funext fun d => Fin.ext (by match d with | ⟨0, _⟩ => rfl | ⟨1, _⟩ => rfl)
  rw [e1, ref_rowExp, ref_rowSum, Ideal.hostDivf_def]
  rfl

/-! ## The attended features -/

/-- The attended feature `f` of batch row `a`: the sum over time of the feature times the weight, from zero. -/
theorem ref_attn_ix (a : Fin 64) (f : Fin 2048) :
    val_main_v24 (F := Ideal) x0 x1 x2 x3 x4 x5 (ix2 a f) = attn x0 x1 x2 x3 x4 x5 a f := by
  rw [val_main_v24_apply, val_main_cst_2_apply, Ideal.ofBits_def, Ideal.ofBits_zero_f32, zero_add]
  unfold attn
  refine Finset.sum_congr rfl fun k _ => ?_
  have e1 : idx_main_v24 (ix2 a f) k = ix3 a k f := funext fun d => Fin.ext (by match d with | ⟨0, _⟩ => rfl | ⟨1, _⟩ => rfl | ⟨2, _⟩ => rfl)
  have e2 : idx_main_v22 (ix3 a k f) = ix3 a k (0 : Fin 1) := funext fun d => Fin.ext (by match d with | ⟨0, _⟩ => rfl | ⟨1, _⟩ => rfl | ⟨2, _⟩ => rfl)
  rw [e1, val_main_v23_apply, val_main_v22_apply, e2, ref_weights_ix, Ideal.mulf_def]

/-! ## The two results -/

/-- The reference's first result is the specification's attended features. -/
theorem ref_attn : val_main_v24 (F := Ideal) x0 x1 x2 x3 x4 x5 = outAttn x0 x1 x2 x3 x4 x5 := by
  funext i
  obtain ⟨a, f, rfl⟩ : ∃ (a : Fin 64) (f : Fin 2048), i = ix2 a f := ⟨i 0, i 1, eq_ix2 i⟩
  exact (ref_attn_ix x0 x1 x2 x3 x4 x5 a f).trans (outAttn_ix x0 x1 x2 x3 x4 x5 a f).symm

/-- The reference's second result is the specification's attention weights. -/
theorem ref_weights : val_main_v21 (F := Ideal) x0 x1 x2 x3 x4 x5 = outWeights x0 x1 x2 x3 x4 x5 := by
  funext i
  obtain ⟨a, t, z, rfl⟩ : ∃ (a : Fin 64) (t : Fin 512) (z : Fin 1), i = ix3 a t z := ⟨i 0, i 1, i 2, eq_ix3 i⟩
  exact (ref_weights_ix x0 x1 x2 x3 x4 x5 a t z).trans (outWeights_ix x0 x1 x2 x3 x4 x5 a t z).symm

end Cert.ReferenceIdeal.RefValue

end
-- ==== Proof.lean ====
/-
  The certificate of an additive-attention layer computed by two kernel calls with a host softmax between them, against
  its plain reference.

  Both programs compute, for a batch row a: the energies e(a,t) = Σ_k tanh((hidden(a,·)·W(k,·) + feats(a,t,·)·U(k,·)) + b(k)) · w(0,k);
  the weights, the softmax of e(a,·) over time; and the attended features Σ_t weights(a,t) · feats(a,t,f) (Proof/Spec.lean).
  The kernel's first call computes the energies tile by tile; host operations take the softmax; its second call accumulates
  the attended features over four blocks of time in a scratch buffer and writes them out at the last block. At the ideal
  instance every sum is an exact sum of extended reals, so the kernel's tiling and blockwise accumulation and the
  reference's whole-array contractions are the same sums — by commutativity and associativity of + and ·, with no use of
  the inputs' finiteness.

  The frames: each call's body runs at every grid point on its staging buffers (Proof/Region0.lean, Proof/Region1.lean; the
  word-level program's in Proof/WRegion0.lean, Proof/WRegion1.lean), the calls are regions of the program between
  named valuations of the unscoped buffers (Proof/Frames.lean, Proof/WFrames.lean), and the run reads every unscoped buffer
  of the final memory off the last valuation. The reference's frame is its generated run with the results dropped.
  The values: Proof/EnergyArray.lean and Proof/AttnArray.lean (blocks to whole arrays), Proof/KernelMath.lean (the bodies'
  arithmetic at an index), Proof/KernelValue.lean (the kernel's two results are the specification's), Proof/RefValue.lean
  (so are the reference's).
-/
import proofs.«103845_j22514218566280_2_alg».proof.Defs
import proofs.«103845_j22514218566280_2_alg».proof.Proof.Gen.Kernel
import proofs.«103845_j22514218566280_2_alg».proof.Proof.Gen.KernelIdeal
import proofs.«103845_j22514218566280_2_alg».proof.Proof.Gen.ReferenceIdeal
import proofs.«103845_j22514218566280_2_alg».proof.Proof.Gen.Pre_finite_inputs
import proofs.«103845_j22514218566280_2_alg».proof.Proof.Gen.ReferenceIdeal.Run
import proofs.«103845_j22514218566280_2_alg».proof.Proof.Gen.ReferenceIdeal.Read
import proofs.«103845_j22514218566280_2_alg».proof.Proof.WFrames
import proofs.«103845_j22514218566280_2_alg».proof.Proof.Frames
import proofs.«103845_j22514218566280_2_alg».proof.Proof.KernelValue
import proofs.«103845_j22514218566280_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : @Cert.frame_Kernel Cert.Kernel.Gen.facts Cert.Pre_finite_inputs.Gen.facts :=
  fun m ρ _ => Cert.Kernel.HandRun.frame m ρ

/-- So does the idealized program. -/
theorem frame_ki : @Cert.frame_KernelIdeal Cert.KernelIdeal.Gen.facts Cert.Pre_finite_inputs.Gen.facts :=
  fun m ρ _ => Cert.KernelIdeal.HandRun.frame m ρ

/-- The reference's frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- At the ideal instance both programs end with the specification's two arrays of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.AttnSpec.outAttn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.AttnSpec.outWeights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.HandRun.mem_uc Cert.KernelIdeal.main_v14 (by decide))).trans (Cert.KernelIdeal.HandVal.kernel_attn m c),
       (h c _ (Cert.KernelIdeal.HandRun.mem_uc Cert.KernelIdeal.main_v12 (by decide))).trans (Cert.KernelIdeal.HandVal.kernel_weights m c),
       (h c _ (Cert.KernelIdeal.HandRun.mem_uc Cert.KernelIdeal.main_arg0 (by decide))).trans (Cert.KernelIdeal.Gen.V3_main_arg0 m (Cert.KernelIdeal.HandRun.outs m) c),
       (h c _ (Cert.KernelIdeal.HandRun.mem_uc Cert.KernelIdeal.main_arg1 (by decide))).trans (Cert.KernelIdeal.Gen.V3_main_arg1 m (Cert.KernelIdeal.HandRun.outs m) c),
       (h c _ (Cert.KernelIdeal.HandRun.mem_uc Cert.KernelIdeal.main_arg2 (by decide))).trans (Cert.KernelIdeal.Gen.V3_main_arg2 m (Cert.KernelIdeal.HandRun.outs m) c),
       (h c _ (Cert.KernelIdeal.HandRun.mem_uc Cert.KernelIdeal.main_arg3 (by decide))).trans (Cert.KernelIdeal.Gen.V3_main_arg3 m (Cert.KernelIdeal.HandRun.outs m) c),
       (h c _ (Cert.KernelIdeal.HandRun.mem_uc Cert.KernelIdeal.main_arg4 (by decide))).trans (Cert.KernelIdeal.Gen.V3_main_arg4 m (Cert.KernelIdeal.HandRun.outs m) c),
       (h c _ (Cert.KernelIdeal.HandRun.mem_uc Cert.KernelIdeal.main_arg5 (by decide))).trans (Cert.KernelIdeal.Gen.V3_main_arg5 m (Cert.KernelIdeal.HandRun.outs m) c)⟩)
      (Cert.KernelIdeal.HandRun.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v24_eq, Cert.ReferenceIdeal.RefValue.ref_attn,
        (hagree c).1, (hagree c).2.1, (hagree c).2.2.1, (hagree c).2.2.2.1, (hagree c).2.2.2.2.1, (hagree c).2.2.2.2.2]
    · rw [Cert.ReferenceIdeal.Read.val_main_v21_eq, Cert.ReferenceIdeal.RefValue.ref_weights,
        (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
